-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S2048x64 : Shape := ⟨2, ![2048, 64]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S2x12x2048x64 .f32) (main_arg1 : FVec F S2x12x2048x64 .f32) (main_arg2 : FVec F S2048x64 .f32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  main_v13
-- ==== Kernel.lean ====
abbrev S2x12x2048x64 : Shape := ⟨4, ![2, 12, 2048, 64]⟩
abbrev S2048x64 : Shape := ⟨2, ![2048, 64]⟩
abbrev S24x2048x64 : Shape := ⟨3, ![24, 2048, 64]⟩
abbrev S2048x2048 : Shape := ⟨2, ![2048, 2048]⟩
abbrev S512x64 : Shape := ⟨2, ![512, 64]⟩
abbrev S512x2048 : Shape := ⟨2, ![512, 2048]⟩
abbrev S64x2048 : Shape := ⟨2, ![64, 2048]⟩
abbrev S24x2048x2048 : Shape := ⟨3, ![24, 2048, 2048]⟩
abbrev S1x1024x64 : Shape := ⟨3, ![1, 1024, 64]⟩
abbrev S1024x1024 : Shape := ⟨2, ![1024, 1024]⟩
abbrev S1x1024x1024 : Shape := ⟨3, ![1, 1024, 1024]⟩
abbrev S1024x64 : Shape := ⟨2, ![1024, 64]⟩
abbrev S64x1024 : Shape := ⟨2, ![64, 1024]⟩
abbrev S2x12x2048x2048 : Shape := ⟨4, ![2, 12, 2048, 2048]⟩

abbrev nBuf : Space → Nat
  | .hbm => 8
  | .vmem => 13
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2048x64, .f32⟩
  | .hbm, ⟨3, _⟩ => ⟨S24x2048x64, .f32⟩
  | .hbm, ⟨4, _⟩ => ⟨S24x2048x64, .f32⟩
  | .hbm, ⟨5, _⟩ => ⟨S2048x2048, .f32⟩
  | .hbm, ⟨6, _⟩ => ⟨S24x2048x2048, .f32⟩
  | .hbm, ⟨7, _⟩ => ⟨S2x12x2048x2048, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S512x2048, .f32⟩
  | .local _ .vmem, ⟨4, _⟩ => ⟨S512x2048, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1024x1024, .f32⟩
  | .local _ .vmem, ⟨10, _⟩ => ⟨S1024x1024, .f32⟩
  | .local _ .vmem, ⟨11, _⟩ => ⟨S1x1024x1024, .f32⟩
  | .local _ .vmem, ⟨12, _⟩ => ⟨S1x1024x1024, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 2, 24], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S2x12x2048x64_S24x2048x64 : S2x12x2048x64.ShapeCasts S24x2048x64
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  transposes_S2048x64_p1_0_S64x2048 : S2048x64.Transposes [1, 0] S64x2048
  inb_S512x2048_S512x2048_0_0 : ∀ a, (![0, 0] : Fin 2 → Nat) a + S512x2048.size a ≤ S512x2048.size a
  h_S512x2048 : 0 < S512x2048.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S24x2048x2048_S2x12x2048x2048 : S24x2048x2048.ShapeCasts S2x12x2048x2048
  dot_S512x64_S64x2048_S512x2048_1_0_0_1_n_n_wf : DotDims.WF S512x64 S64x2048 S512x2048 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S24x2048x64.size a
  hwx1_0 : ∀ i : grid1.Coords, EltTy.bits .f32 = 32 ∨ (Rect.block (s := S24x2048x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S24x2048x64.size a
  hwx1_1 : ∀ i : grid1.Coords, EltTy.bits .f32 = 32 ∨ (Rect.block (s := S24x2048x64) S1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S2048x2048.size a
  hwx1_2 : ∀ i : grid1.Coords, EltTy.bits .f32 = 32 ∨ (Rect.block (s := S2048x2048) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S24x2048x2048.size a
  hwx1_3 : ∀ i : grid1.Coords, EltTy.bits .f32 = 32 ∨ (Rect.block (s := S24x2048x2048) S1x1024x1024.size (cc1_transform_3 i) (hinb1_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg2) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x12x2048x64 : Shape := ⟨4, ![2, 12, 2048, 64]⟩
abbrev S2048x64 : Shape := ⟨2, ![2048, 64]⟩
abbrev S2x12x2048x2048 : Shape := ⟨4, ![2, 12, 2048, 2048]⟩
abbrev S_ : Shape := ⟨0, ![]⟩
abbrev S2048x2048 : Shape := ⟨2, ![2048, 2048]⟩
abbrev S1x1x2048x2048 : Shape := ⟨4, ![1, 1, 2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2048x64, .f32⟩
  | .hbm, ⟨3, _⟩ => ⟨S2x12x2048x2048, .f32⟩
  | .hbm, ⟨4, _⟩ => ⟨S_, .f32⟩
  | .hbm, ⟨5, _⟩ => ⟨S2x12x2048x2048, .f32⟩
  | .hbm, ⟨6, _⟩ => ⟨S2x12x2048x2048, .f32⟩
  | .hbm, ⟨7, _⟩ => ⟨S2x12x2048x2048, .f32⟩
  | .hbm, ⟨8, _⟩ => ⟨S2x12x2048x2048, .f32⟩
  | .hbm, ⟨9, _⟩ => ⟨S_, .f32⟩
  | .hbm, ⟨10, _⟩ => ⟨S2x12x2048x2048, .f32⟩
  | .hbm, ⟨11, _⟩ => ⟨S2x12x2048x2048, .f32⟩
  | .hbm, ⟨12, _⟩ => ⟨S_, .f32⟩
  | .hbm, ⟨13, _⟩ => ⟨S2x12x2048x2048, .f32⟩
  | .hbm, ⟨14, _⟩ => ⟨S2x12x2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S1x1x2048x2048, .f32⟩
  | .hbm, ⟨20, _⟩ => ⟨S2x12x2048x2048, .f32⟩
  | .hbm, ⟨21, _⟩ => ⟨S2x12x2048x2048, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x12x2048x2048_0_1_2_3 : S1x1x2048x2048.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2048x64_S2048x64_S2048x2048_1_1_0_0_n_n_wf : DotDims.WF S2048x64 S2048x64 S2048x2048 [1] [1] [0] [0] [] []

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

class Facts : Prop extends Facts₀ where

variable [Facts]
-- ==== Proof.K.Data.lean ====
/-
  The two pipelines' proof data, at any float instance.

  Call 0 computes the position bias, 512 rows at a point over a grid of 4: window 0 is the point's 512 rows of the
  position table, window 1 the whole table (both windows read the SAME array, each at half the share), window 2 the
  point's 512 rows of the [2048, 2048] result. Call 1 computes the gated product over a grid of 2 × 2 × 24: windows 0
  and 1 are one head's 1024 query rows and 1024 key rows, window 2 the matching 1024 × 1024 tile of the bias, window 3
  the matching tile of the result. In both, what the body leaves in the output window's buffer is its one store's
  payload of the input blocks, and every input buffer is left holding its block.
-/
import proofs.«141737_j71210557768292_1_alg».proof.Proof.Gen.Kernel.Launch
import proofs.«141737_j71210557768292_1_alg».proof.Proof.Gen.Kernel.Skeleton
import proofs.«141737_j71210557768292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the core's buffer contents when a region is entered
variable (V : (c : Dev nD) → (b : Ref sig .tc) → Buf (Elt F) ((c : Thread nD τ).loc b))

/-! ## Call 0: the position bias -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's accesses: each is the whole of its buffer. -/
abbrev rRows0 : Rect S512x64 := Rect.unit (s := S512x64) ![0, 0] S512x64.size inb_S512x64_S512x64_0_0
abbrev rTable0 : Rect S2048x64 := Rect.unit (s := S2048x64) ![0, 0] S2048x64.size inb_S2048x64_S2048x64_0_0
abbrev rOut0 : Rect S512x2048 := Rect.unit (s := S512x2048) ![0, 0] S512x2048.size inb_S512x2048_S512x2048_0_0

/-- What the body leaves in the output window's buffer: its one store, of the payload of the two loads. -/
def out0_2 (x0 : Vec F S512x64 .f32) (x1 : Vec F S2048x64 .f32) : Vec F S512x2048 .f32 :=
  View.canon [⟨rOut0, k0_pay1 (View.ld x0 rRows0) (View.ld x1 rTable0)⟩]

/-- The store covers the buffer. -/
theorem cover0_2 (p0 : Vec F S512x2048 .f32) (y : S512x2048.Idx) :
    ∃ pc ∈ ([⟨rOut0, p0⟩] : List (View.Piece (Elt F) S512x2048 .f32)), y ∈ pc.1.set :=
  View.cover_of_tiled [⟨rOut0, p0⟩] S512x2048.size (by rfl) y

/-- The proof data of pipeline 0 on core `c`: the arrays as the region finds them; the two input windows share the
    position table's array, half the share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => PosShare.left fullShare
    | ⟨1, _⟩ => PosShare.right fullShare
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Call 1: the gated product -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: each is the whole of its buffer. -/
abbrev rHead1 : Rect S1x1024x64 := Rect.unit (s := S1x1024x64) ![0, 0, 0] S1x1024x64.size inb_S1x1024x64_S1x1024x64_0_0_0
abbrev rBias1 : Rect S1024x1024 := Rect.unit (s := S1024x1024) ![0, 0] S1024x1024.size inb_S1024x1024_S1024x1024_0_0
abbrev rOut1 : Rect S1x1024x1024 := Rect.unit (s := S1x1024x1024) ![0, 0, 0] S1x1024x1024.size inb_S1x1024x1024_S1x1024x1024_0_0_0

/-- What the body leaves in the output window's buffer: its one store, of the payload of the three loads. -/
def out1_3 (x0 x1 : Vec F S1x1024x64 .f32) (x2 : Vec F S1024x1024 .f32) : Vec F S1x1024x1024 .f32 :=
  View.canon [⟨rOut1, k1_pay1 (View.ld x0 rHead1) (View.ld x1 rHead1) (View.ld x2 rBias1)⟩]

/-- The store covers the buffer. -/
theorem cover1_3 (p0 : Vec F S1x1024x1024 .f32) (y : S1x1024x1024.Idx) :
    ∃ pc ∈ ([⟨rOut1, p0⟩] : List (View.Piece (Elt F) S1x1024x1024 .f32)), y ∈ pc.1.set :=
  View.cover_of_tiled [⟨rOut1, p0⟩] S1x1024x1024.size (by rfl) y

/-- The proof data of pipeline 1 on core `c`: the arrays as the region finds them, each at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Fold.lean ====
/-
  The buffer contents between the items of @main, at any float instance: the launch memory; after the two reshapes;
  after the position-bias call (the bias array at what its write-backs leave, every other buffer as entered); after the
  gated-product call (likewise for the product array); after the last reshape.
-/
import proofs.«141737_j71210557768292_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: the bias array at what the write-backs leave, every other buffer as entered. -/
def W2 (c : Dev nD) : Valuation τ sig (Elt F) :=
  Function.update (W1 m ρ c) (Proc.devRef .tc main_v2) ((dat0 (V1 m ρ) c).arrAt 2 cfg0.N)
abbrev V2 : (c : Dev nD) → (b : Ref sig .tc) → Buf (Elt F) ((c : Thread nD τ).loc b) := fun c b => W2 m ρ c b
/-- After call 1: the product array at what the write-backs leave, every other buffer as entered. -/
def W3 (c : Dev nD) : Valuation τ sig (Elt F) :=
  Function.update (W2 m ρ c) (Proc.devRef .tc main_v3) ((dat1 (V2 m ρ) c).arrAt 3 cfg1.N)
abbrev V3 : (c : Dev nD) → (b : Ref sig .tc) → Buf (Elt F) ((c : Thread nD τ).loc b) := fun c b => W3 m ρ c b
/-- After the last reshape. -/
abbrev W4 : Dev nD → Valuation τ sig (Elt F) := fun c => StableHlo.after hostOps2 (W3 m ρ c)

theorem W2_v2 (c : Dev nD) : W2 m ρ c (Proc.devRef .tc main_v2) = (dat0 (V1 m ρ) c).arrAt 2 cfg0.N := by
  unfold W2; exact Function.update_self ..
theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) ..
theorem W3_v3 (c : Dev nD) : W3 m ρ c (Proc.devRef .tc main_v3) = (dat1 (V2 m ρ) c).arrAt 3 cfg1.N := by
  unfold W3; exact Function.update_self ..
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) ..

end Cert.Kernel.Hand

end
-- ==== Proof.K.Body0.lean ====
/-
  Call 0's body, at any float instance: the triple of the kernel function on whole staging buffers, and the
  pipeline's body obligation at every grid point.
-/
import proofs.«141737_j71210557768292_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! ## The input windows' staging buffers hold their blocks -/

/-- An input window whose body leaves its block in place holds its block at every point, fetched there or not:
    unfetched, the block index has not moved. Window 0 (the point's rows). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Window 1 (the whole table, fetched at the first point only). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The kernel function on whole staging buffers, the inputs' at read contents `x0`, `x1` and the output's at
    anything, runs to the continuation holding the inputs' as they were and the output's at `out0_2 x0 x1`: the
    three loads read the buffers as they are (the third, of the output buffer, is unused), and the one store
    covers the output buffer, so what any view reads afterwards is the canonical contents of that store. -/
theorem sound_kernel0 (c : Dev nD) (E : Set ℕ) (i : grid0.Coords)
    (arg1 : Memref sig .tc .vmem S512x64 .f32) (harg1 : arg1.IsWhole)
    (arg2 : Memref sig .tc .vmem S2048x64 .f32) (harg2 : arg2.IsWhole)
    (arg3 : Memref sig .tc .vmem S512x2048 .f32) (harg3 : arg3.IsWhole)
    (x0 : Vec F S512x64 .f32) (x1 : Vec F S2048x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, what the core owes, and the three windows' current
    staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input windows' buffers hold their blocks, so the kernel function's triple applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Call 1's body, at any float instance: the triple of the kernel function on whole staging buffers, and the
  pipeline's body obligation at every grid point.
-/
import proofs.«141737_j71210557768292_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! ## The input windows' staging buffers hold their blocks -/

/-- An input window whose body leaves its block in place holds its block at every point, fetched there or not:
    unfetched, the block index has not moved. Window 0 (one head's query rows). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Window 1 (one head's key rows). -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Window 2 (the bias tile, fetched only when the head index returns to 0). -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The kernel function on whole staging buffers, the inputs' at read contents `x0`, `x1`, `x2` and the output's at
    anything, runs to the continuation holding the inputs' as they were and the output's at `out1_3 x0 x1 x2`: the
    four loads read the buffers as they are (the fourth, of the output buffer, is unused), and the one store
    covers the output buffer, so what any view reads afterwards is the canonical contents of that store. -/
theorem sound_kernel1 (c : Dev nD) (E : Set ℕ) (i : grid1.Coords)
    (arg3 : Memref sig .tc .vmem S1x1024x64 .f32) (harg3 : arg3.IsWhole)
    (arg4 : Memref sig .tc .vmem S1x1024x64 .f32) (harg4 : arg4.IsWhole)
    (arg5 : Memref sig .tc .vmem S1024x1024 .f32) (harg5 : arg5.IsWhole)
    (arg6 : Memref sig .tc .vmem S1x1024x1024 .f32) (harg6 : arg6.IsWhole)
    (x0 x1 : Vec F S1x1024x64 .f32) (x2 : Vec F S1024x1024 .f32) (K : PUnit → sProp 𝕄) :
    iprop(owns (c : Thread nD τ) arg3 fullShare x0 ∗ owns (c : Thread nD τ) arg4 fullShare x1
        ∗ owns (c : Thread nD τ) arg5 fullShare x2
        ∗ (∃ d, owns (c : Thread nD τ) arg6 fullShare d)
        ∗ (iprop(owns (c : Thread nD τ) arg3 fullShare x0 ∗ owns (c : Thread nD τ) arg4 fullShare x1
            ∗ owns (c : Thread nD τ) arg5 fullShare x2
            ∗ owns (c : Thread nD τ) arg6 fullShare (out1_3 x0 x1 x2)) -∗ K ⟨⟩))
      ⊢ wp frame (wpE (defs₀ (F := F)) Variants.none c none) E
          (cc1_kernel i arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`: the invariant, what the core owes, and the four windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input windows' buffers hold their blocks, so the kernel function's triple applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of @main, at any float instance: two reshapes, the position-bias call, the gated-product call, one reshape.

  Between two items every unscoped buffer of the core is held whole at a known valuation: the launch memory; after the
  two reshapes; after call 0, the same but for the bias array, which holds what the call's write-backs leave; after call 1,
  the same but for the product array; after the last reshape. Call 0 reads the position table through two windows, so at
  its entry the table's full share is split in halves between them and joined again at its exit; no write-back touches it.
  The run ends with every unscoped buffer at the last valuation, which gives the arguments unchanged and names the result.
-/
import proofs.«141737_j71210557768292_1_alg».proof.Proof.K.Fold
import proofs.«141737_j71210557768292_1_alg».proof.Proof.K.Body0
import proofs.«141737_j71210557768292_1_alg».proof.Proof.K.Body1
import proofs.«141737_j71210557768292_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## Call 0's arrays in and out of the unscoped buffers: the position table shared by two windows -/

variable (V : (c : Dev nD) → (b : Ref sig .tc) → Buf (Elt F) ((c : Thread nD τ).loc b))

theorem share0_0 (c : Dev nD) : (dat0 V c).share 0 = PosShare.left fullShare := rfl
theorem share0_1 (c : Dev nD) : (dat0 V c).share 1 = PosShare.right fullShare := rfl
theorem share0_2 (c : Dev nD) : (dat0 V c).share 2 = fullShare := rfl

set_option pp.maxSteps 20000 in
theorem arrays_in0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  unfold Pipeline.arrBufs Dat.arrays
  rw [show (Finset.univ.image (Pipeline.arrRef (cfgs 0).spec)) = {main_arg2, main_v2} from by decide,
    bigSep_insert (by decide), bigSep_singleton, bigSep_W0]
  have h0 : (cfg0.win 0).arr.view.set = Finset.univ := (arr_whole0 0).set_eq_univ
  have h2 : (cfg0.win 2).arr.view.set = Finset.univ := (arr_whole0 2).set_eq_univ
  rw [h0, h2, share0_0, share0_1, share0_2]
  show iprop((((c : Thread nD τ).loc main_arg2) ↦{fullShare} V c main_arg2) ∗ (((c : Thread nD τ).loc main_v2) ↦{fullShare} V c main_v2)) ⊢ _
  iintro ⟨Ht, Hb⟩
  ihave Ht' := (pointsTo_share (PosShare.mem_left_op_right fullShare)).1 $$ Ht
  icases Ht' with ⟨Hl, Hr⟩
  isplitl [Hl]; · iexact Hl
  isplitl [Hr]; · iexact Hr
  iexact Hb

theorem arrays_out0 (c : Dev nD) (V' : (b : Ref sig .tc) → Buf (Elt F) ((c : Thread nD τ).loc b))
    (hv2 : V' main_v2 = (dat0 V c).arrAt 2 cfg0.N) (hrest : ∀ b, b ≠ main_v2 → V' b = V c b) :
    iprop((dat0 V c).arrays ((dat0 V c).arrAt · cfg0.N) ∗ Pipeline.unscopedRest spec0 c (V c)) ⊢ (unscopedBufs c V' : sProp 𝕄) := by
  rw [Pipeline.unscopedBufs_split₀ cfgs 0 winFacts₀0.arr_unscoped c V']
  refine sep_mono ?_ (Entails.of_eq ?_)
  · unfold Pipeline.arrBufs Dat.arrays
    rw [show (Finset.univ.image (Pipeline.arrRef (cfgs 0).spec)) = {main_arg2, main_v2} from by decide,
      bigSep_insert (by decide), bigSep_singleton, bigSep_W0]
    have h0 : (cfg0.win 0).arr.view.set = Finset.univ := (arr_whole0 0).set_eq_univ
    have h2 : (cfg0.win 2).arr.view.set = Finset.univ := (arr_whole0 2).set_eq_univ
    have e0 : (dat0 V c).arrAt 0 cfg0.N = V c main_arg2 := ((dat0 V c).arrAt_in 0 rfl _).trans (A_eq0 V c 0)
    have e1 : (dat0 V c).arrAt 1 cfg0.N = V c main_arg2 := ((dat0 V c).arrAt_in 1 rfl _).trans (A_eq0 V c 1)
    rw [h0, h2, share0_0, share0_1, share0_2]
    dsimp only
    rw [e0, e1, hrest main_arg2 (by decide), hv2]
    show _ ⊢ iprop((((c : Thread nD τ).loc main_arg2) ↦{fullShare} V c main_arg2) ∗ (((c : Thread nD τ).loc main_v2) ↦{fullShare} (dat0 V c).arrAt 2 cfg0.N))
    iintro ⟨Hl, Hr, Hb⟩
    isplitl [Hl Hr]
    · iapply (pointsTo_share (PosShare.mem_left_op_right fullShare)).2
      isplitl [Hl]; · iexact Hl
      iexact Hr
    iexact Hb
  · unfold Pipeline.unscopedRest
    exact bigSep_congr fun b hb => by
      rw [hrest b fun e => (Finset.mem_sdiff.mp hb).2 (e ▸ (by decide : main_v2 ∈ Finset.univ.image (Pipeline.arrRef (cfgs 0).spec)))]

/-! ## The calls as segments -/

-- a library lemma stated over the pinned configuration unifies with the printed one only when unification may unfold
-- plain definitions in a metavariable's type
set_option backward.isDefEq.respectTransparency.types false in
/-- Call 0 over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_in0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs c (V2 m ρ c) : sProp 𝕄) :=
      arrays_out0 (V1 m ρ) c (V2 m ρ c) (W2_v2 m ρ c) (fun b hb => W2_of_ne m ρ c b hb)
    rw [Pipeline.unscopedBufs_held] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

/-- At call 1's exit each of its arrays holds what the pipeline leaves: an input array what it held, the product
    array its write-backs. -/
theorem arrs_out1 (c : Dev nD) (w : Fin cfg1.W) : (dat1 (V2 m ρ) c).arrAt w cfg1.N = V3 m ρ c (Pipeline.arrRef spec1 w) :=
  match w with
  | ⟨0, _⟩ => (((dat1 (V2 m ρ) c).arrAt_in 0 rfl _).trans (A_eq1 (V2 m ρ) c 0)).trans (W3_of_ne m ρ c main_v0 (by decide)).symm
  | ⟨1, _⟩ => (((dat1 (V2 m ρ) c).arrAt_in 1 rfl _).trans (A_eq1 (V2 m ρ) c 1)).trans (W3_of_ne m ρ c main_v1 (by decide)).symm
  | ⟨2, _⟩ => (((dat1 (V2 m ρ) c).arrAt_in 2 rfl _).trans (A_eq1 (V2 m ρ) c 2)).trans (W3_of_ne m ρ c main_v2 (by decide)).symm
  | ⟨3, _⟩ => (W3_v3 m ρ c).symm
theorem rest_out1 (c : Dev nD) : ∀ b, b ∉ Finset.univ.image (Pipeline.arrRef spec1) → V3 m ρ c b = V2 m ρ c b :=
  fun b hb => W3_of_ne m ρ c b fun e => hb (e ▸ (by decide : main_v3 ∈ Finset.univ.image (Pipeline.arrRef spec1)))

set_option backward.isDefEq.respectTransparency.types false in
/-- Call 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (arrs_out1 m ρ c) (rest_out1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.FoldRead.lean ====
/-
  The buffer contents at the boundaries of @main, read back: no item writes an argument array, so each argument
  reads as launched at every boundary; the two head arrays after the first reshapes are the reshapes of the query and
  key arguments; call 0 changes the bias array only; the returned array is the reshape of the product array.
-/
import proofs.«141737_j71210557768292_1_alg».proof.Proof.K.Fold
import proofs.«141737_j71210557768292_1_alg».proof.Proof.Gen.Kernel.Regions
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## What the host stretches leave alone -/

/-- A reference the first two reshapes do not write reads as launched after them. -/
theorem W1_of (c : Dev nD) (r : Ref sig .tc) (h : r ∉ hostOps0_W) :
    W1 m ρ c (Proc.devRef .tc r) = m ((c : Thread nD τ).loc r) :=
  (StableHlo.after_of_writes_sub hostOps0 _ hostOps0_writes h).trans rfl

/-- A reference the last reshape does not write reads after it what it held before. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-! ## No item writes an argument -/

theorem W4_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of_ne m ρ c main_arg0 (by decide)).trans <| W1_of m ρ c main_arg0 (by decide)
theorem W4_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_of_ne m ρ c main_arg1 (by decide)).trans <| W1_of m ρ c main_arg1 (by decide)
theorem W4_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of_ne m ρ c main_arg2 (by decide)).trans <| W1_of m ρ c main_arg2 (by decide)

/-! ## Call 0's entry -/

/-- The position table reads as launched. -/
theorem V1_arg2 (c : Dev nD) : V1 m ρ c main_arg2 = m ((c : Thread nD τ).loc main_arg2) :=
  W1_of m ρ c main_arg2 (by decide)

/-- The query heads are the query argument, reshaped. -/
theorem V1_v0 (c : Dev nD) :
    V1 m ρ c main_v0 = shapeCast S24x2048x64 (m ((c : Thread nD τ).loc main_arg0)) shapeCasts_S2x12x2048x64_S24x2048x64 := by
  show StableHlo.after hostOps0 (W0 m ρ c) (Proc.devRef .tc main_v0) = _
  dsimp only [hostOps0]
  simp only [StableHlo.after_cons, StableHlo.after_nil]
  refine (StableHlo.reshape_result_ne _ _ _ _ _ _ _ (by decide)).trans ?_
  refine (StableHlo.reshape_result _ _ _ _ _ _ _).trans ?_
  rfl

/-- The key heads are the key argument, reshaped. -/
theorem V1_v1 (c : Dev nD) :
    V1 m ρ c main_v1 = shapeCast S24x2048x64 (m ((c : Thread nD τ).loc main_arg1)) shapeCasts_S2x12x2048x64_S24x2048x64 := by
  show StableHlo.after hostOps0 (W0 m ρ c) (Proc.devRef .tc main_v1) = _
  dsimp only [hostOps0]
  simp only [StableHlo.after_cons, StableHlo.after_nil]
  refine (StableHlo.reshape_result _ _ _ _ _ _ _).trans ?_
  rw [StableHlo.reshape_result_ne _ _ _ _ _ _ _ (show main_arg1 ≠ main_v0 by decide)]
  rfl

/-! ## Call 1's entry: call 0 changes the bias array only -/

theorem V2_v0 (c : Dev nD) : V2 m ρ c main_v0 = V1 m ρ c main_v0 := W2_of_ne m ρ c main_v0 (by decide)
theorem V2_v1 (c : Dev nD) : V2 m ρ c main_v1 = V1 m ρ c main_v1 := W2_of_ne m ρ c main_v1 (by decide)
theorem V2_arg2 (c : Dev nD) : V2 m ρ c main_arg2 = V1 m ρ c main_arg2 := W2_of_ne m ρ c main_arg2 (by decide)
/-- The bias array holds what call 0's write-backs leave. -/
theorem V2_v2 (c : Dev nD) : V2 m ρ c main_v2 = (dat0 (V1 m ρ) c).arrAt 2 cfg0.N := W2_v2 m ρ c

/-! ## The returned array -/

/-- The returned array is the product array as call 1 leaves it, reshaped. -/
theorem W4_v4 (c : Dev nD) :
    W4 m ρ c (Proc.devRef .tc main_v4)
      = shapeCast S2x12x2048x2048 (W3 m ρ c (Proc.devRef .tc main_v3)) shapeCasts_S24x2048x2048_S2x12x2048x2048 := by
  show StableHlo.after hostOps2 (W3 m ρ c) (Proc.devRef .tc main_v4) = _
  dsimp only [hostOps2]
  simp only [StableHlo.after_cons, StableHlo.after_nil]
  refine (StableHlo.reshape_result _ _ _ _ _ _ _).trans ?_
  rfl

end Cert.Kernel.Hand

end
-- ==== Proof.KI.Data.lean ====
/-
  The two pipelines' proof data, at any float instance.

  Call 0 computes the position bias, 512 rows at a point over a grid of 4: window 0 is the point's 512 rows of the
  position table, window 1 the whole table (both windows read the SAME array, each at half the share), window 2 the
  point's 512 rows of the [2048, 2048] result. Call 1 computes the gated product over a grid of 2 × 2 × 24: windows 0
  and 1 are one head's 1024 query rows and 1024 key rows, window 2 the matching 1024 × 1024 tile of the bias, window 3
  the matching tile of the result. In both, what the body leaves in the output window's buffer is its one store's
  payload of the input blocks, and every input buffer is left holding its block.
-/
import proofs.«141737_j71210557768292_1_alg».proof.Proof.Gen.KernelIdeal.Launch
import proofs.«141737_j71210557768292_1_alg».proof.Proof.Gen.KernelIdeal.Skeleton
import proofs.«141737_j71210557768292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the core's buffer contents when a region is entered
variable (V : (c : Dev nD) → (b : Ref sig .tc) → Buf (Elt F) ((c : Thread nD τ).loc b))

/-! ## Call 0: the position bias -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's accesses: each is the whole of its buffer. -/
abbrev rRows0 : Rect S512x64 := Rect.unit (s := S512x64) ![0, 0] S512x64.size inb_S512x64_S512x64_0_0
abbrev rTable0 : Rect S2048x64 := Rect.unit (s := S2048x64) ![0, 0] S2048x64.size inb_S2048x64_S2048x64_0_0
abbrev rOut0 : Rect S512x2048 := Rect.unit (s := S512x2048) ![0, 0] S512x2048.size inb_S512x2048_S512x2048_0_0

/-- What the body leaves in the output window's buffer: its one store, of the payload of the two loads. -/
def out0_2 (x0 : Vec F S512x64 .f32) (x1 : Vec F S2048x64 .f32) : Vec F S512x2048 .f32 :=
  View.canon [⟨rOut0, k0_pay1 (View.ld x0 rRows0) (View.ld x1 rTable0)⟩]

/-- The store covers the buffer. -/
theorem cover0_2 (p0 : Vec F S512x2048 .f32) (y : S512x2048.Idx) :
    ∃ pc ∈ ([⟨rOut0, p0⟩] : List (View.Piece (Elt F) S512x2048 .f32)), y ∈ pc.1.set :=
  View.cover_of_tiled [⟨rOut0, p0⟩] S512x2048.size (by rfl) y

/-- The proof data of pipeline 0 on core `c`: the arrays as the region finds them; the two input windows share the
    position table's array, half the share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => PosShare.left fullShare
    | ⟨1, _⟩ => PosShare.right fullShare
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Call 1: the gated product -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: each is the whole of its buffer. -/
abbrev rHead1 : Rect S1x1024x64 := Rect.unit (s := S1x1024x64) ![0, 0, 0] S1x1024x64.size inb_S1x1024x64_S1x1024x64_0_0_0
abbrev rBias1 : Rect S1024x1024 := Rect.unit (s := S1024x1024) ![0, 0] S1024x1024.size inb_S1024x1024_S1024x1024_0_0
abbrev rOut1 : Rect S1x1024x1024 := Rect.unit (s := S1x1024x1024) ![0, 0, 0] S1x1024x1024.size inb_S1x1024x1024_S1x1024x1024_0_0_0

/-- What the body leaves in the output window's buffer: its one store, of the payload of the three loads. -/
def out1_3 (x0 x1 : Vec F S1x1024x64 .f32) (x2 : Vec F S1024x1024 .f32) : Vec F S1x1024x1024 .f32 :=
  View.canon [⟨rOut1, k1_pay1 (View.ld x0 rHead1) (View.ld x1 rHead1) (View.ld x2 rBias1)⟩]

/-- The store covers the buffer. -/
theorem cover1_3 (p0 : Vec F S1x1024x1024 .f32) (y : S1x1024x1024.Idx) :
    ∃ pc ∈ ([⟨rOut1, p0⟩] : List (View.Piece (Elt F) S1x1024x1024 .f32)), y ∈ pc.1.set :=
  View.cover_of_tiled [⟨rOut1, p0⟩] S1x1024x1024.size (by rfl) y

/-- The proof data of pipeline 1 on core `c`: the arrays as the region finds them, each at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Fold.lean ====
/-
  The buffer contents between the items of @main, at any float instance: the launch memory; after the two reshapes;
  after the position-bias call (the bias array at what its write-backs leave, every other buffer as entered); after the
  gated-product call (likewise for the product array); after the last reshape.
-/
import proofs.«141737_j71210557768292_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: the bias array at what the write-backs leave, every other buffer as entered. -/
def W2 (c : Dev nD) : Valuation τ sig (Elt F) :=
  Function.update (W1 m ρ c) (Proc.devRef .tc main_v2) ((dat0 (V1 m ρ) c).arrAt 2 cfg0.N)
abbrev V2 : (c : Dev nD) → (b : Ref sig .tc) → Buf (Elt F) ((c : Thread nD τ).loc b) := fun c b => W2 m ρ c b
/-- After call 1: the product array at what the write-backs leave, every other buffer as entered. -/
def W3 (c : Dev nD) : Valuation τ sig (Elt F) :=
  Function.update (W2 m ρ c) (Proc.devRef .tc main_v3) ((dat1 (V2 m ρ) c).arrAt 3 cfg1.N)
abbrev V3 : (c : Dev nD) → (b : Ref sig .tc) → Buf (Elt F) ((c : Thread nD τ).loc b) := fun c b => W3 m ρ c b
/-- After the last reshape. -/
abbrev W4 : Dev nD → Valuation τ sig (Elt F) := fun c => StableHlo.after hostOps2 (W3 m ρ c)

theorem W2_v2 (c : Dev nD) : W2 m ρ c (Proc.devRef .tc main_v2) = (dat0 (V1 m ρ) c).arrAt 2 cfg0.N := by
  unfold W2; exact Function.update_self ..
theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) ..
theorem W3_v3 (c : Dev nD) : W3 m ρ c (Proc.devRef .tc main_v3) = (dat1 (V2 m ρ) c).arrAt 3 cfg1.N := by
  unfold W3; exact Function.update_self ..
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) ..

end Cert.KernelIdeal.Hand

end
-- ==== Proof.KI.Body0.lean ====
/-
  Call 0's body, at any float instance: the triple of the kernel function on whole staging buffers, and the
  pipeline's body obligation at every grid point.
-/
import proofs.«141737_j71210557768292_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! ## The input windows' staging buffers hold their blocks -/

/-- An input window whose body leaves its block in place holds its block at every point, fetched there or not:
    unfetched, the block index has not moved. Window 0 (the point's rows). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Window 1 (the whole table, fetched at the first point only). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The kernel function on whole staging buffers, the inputs' at read contents `x0`, `x1` and the output's at
    anything, runs to the continuation holding the inputs' as they were and the output's at `out0_2 x0 x1`: the
    three loads read the buffers as they are (the third, of the output buffer, is unused), and the one store
    covers the output buffer, so what any view reads afterwards is the canonical contents of that store. -/
theorem sound_kernel0 (c : Dev nD) (E : Set ℕ) (i : grid0.Coords)
    (arg1 : Memref sig .tc .vmem S512x64 .f32) (harg1 : arg1.IsWhole)
    (arg2 : Memref sig .tc .vmem S2048x64 .f32) (harg2 : arg2.IsWhole)
    (arg3 : Memref sig .tc .vmem S512x2048 .f32) (harg3 : arg3.IsWhole)
    (x0 : Vec F S512x64 .f32) (x1 : Vec F S2048x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, what the core owes, and the three windows' current
    staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input windows' buffers hold their blocks, so the kernel function's triple applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Call 1's body, at any float instance: the triple of the kernel function on whole staging buffers, and the
  pipeline's body obligation at every grid point.
-/
import proofs.«141737_j71210557768292_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! ## The input windows' staging buffers hold their blocks -/

/-- An input window whose body leaves its block in place holds its block at every point, fetched there or not:
    unfetched, the block index has not moved. Window 0 (one head's query rows). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Window 1 (one head's key rows). -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Window 2 (the bias tile, fetched only when the head index returns to 0). -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The kernel function on whole staging buffers, the inputs' at read contents `x0`, `x1`, `x2` and the output's at
    anything, runs to the continuation holding the inputs' as they were and the output's at `out1_3 x0 x1 x2`: the
    four loads read the buffers as they are (the fourth, of the output buffer, is unused), and the one store
    covers the output buffer, so what any view reads afterwards is the canonical contents of that store. -/
theorem sound_kernel1 (c : Dev nD) (E : Set ℕ) (i : grid1.Coords)
    (arg3 : Memref sig .tc .vmem S1x1024x64 .f32) (harg3 : arg3.IsWhole)
    (arg4 : Memref sig .tc .vmem S1x1024x64 .f32) (harg4 : arg4.IsWhole)
    (arg5 : Memref sig .tc .vmem S1024x1024 .f32) (harg5 : arg5.IsWhole)
    (arg6 : Memref sig .tc .vmem S1x1024x1024 .f32) (harg6 : arg6.IsWhole)
    (x0 x1 : Vec F S1x1024x64 .f32) (x2 : Vec F S1024x1024 .f32) (K : PUnit → sProp 𝕄) :
    iprop(owns (c : Thread nD τ) arg3 fullShare x0 ∗ owns (c : Thread nD τ) arg4 fullShare x1
        ∗ owns (c : Thread nD τ) arg5 fullShare x2
        ∗ (∃ d, owns (c : Thread nD τ) arg6 fullShare d)
        ∗ (iprop(owns (c : Thread nD τ) arg3 fullShare x0 ∗ owns (c : Thread nD τ) arg4 fullShare x1
            ∗ owns (c : Thread nD τ) arg5 fullShare x2
            ∗ owns (c : Thread nD τ) arg6 fullShare (out1_3 x0 x1 x2)) -∗ K ⟨⟩))
      ⊢ wp frame (wpE (defs₀ (F := F)) Variants.none c none) E
          (cc1_kernel i arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`: the invariant, what the core owes, and the four windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input windows' buffers hold their blocks, so the kernel function's triple applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of @main, at any float instance: two reshapes, the position-bias call, the gated-product call, one reshape.

  Between two items every unscoped buffer of the core is held whole at a known valuation: the launch memory; after the
  two reshapes; after call 0, the same but for the bias array, which holds what the call's write-backs leave; after call 1,
  the same but for the product array; after the last reshape. Call 0 reads the position table through two windows, so at
  its entry the table's full share is split in halves between them and joined again at its exit; no write-back touches it.
  The run ends with every unscoped buffer at the last valuation, which gives the arguments unchanged and names the result.
-/
import proofs.«141737_j71210557768292_1_alg».proof.Proof.KI.Fold
import proofs.«141737_j71210557768292_1_alg».proof.Proof.KI.Body0
import proofs.«141737_j71210557768292_1_alg».proof.Proof.KI.Body1
import proofs.«141737_j71210557768292_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## Call 0's arrays in and out of the unscoped buffers: the position table shared by two windows -/

variable (V : (c : Dev nD) → (b : Ref sig .tc) → Buf (Elt F) ((c : Thread nD τ).loc b))

theorem share0_0 (c : Dev nD) : (dat0 V c).share 0 = PosShare.left fullShare := rfl
theorem share0_1 (c : Dev nD) : (dat0 V c).share 1 = PosShare.right fullShare := rfl
theorem share0_2 (c : Dev nD) : (dat0 V c).share 2 = fullShare := rfl

set_option pp.maxSteps 20000 in
theorem arrays_in0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  unfold Pipeline.arrBufs Dat.arrays
  rw [show (Finset.univ.image (Pipeline.arrRef (cfgs 0).spec)) = {main_arg2, main_v2} from by decide,
    bigSep_insert (by decide), bigSep_singleton, bigSep_W0]
  have h0 : (cfg0.win 0).arr.view.set = Finset.univ := (arr_whole0 0).set_eq_univ
  have h2 : (cfg0.win 2).arr.view.set = Finset.univ := (arr_whole0 2).set_eq_univ
  rw [h0, h2, share0_0, share0_1, share0_2]
  show iprop((((c : Thread nD τ).loc main_arg2) ↦{fullShare} V c main_arg2) ∗ (((c : Thread nD τ).loc main_v2) ↦{fullShare} V c main_v2)) ⊢ _
  iintro ⟨Ht, Hb⟩
  ihave Ht' := (pointsTo_share (PosShare.mem_left_op_right fullShare)).1 $$ Ht
  icases Ht' with ⟨Hl, Hr⟩
  isplitl [Hl]; · iexact Hl
  isplitl [Hr]; · iexact Hr
  iexact Hb

theorem arrays_out0 (c : Dev nD) (V' : (b : Ref sig .tc) → Buf (Elt F) ((c : Thread nD τ).loc b))
    (hv2 : V' main_v2 = (dat0 V c).arrAt 2 cfg0.N) (hrest : ∀ b, b ≠ main_v2 → V' b = V c b) :
    iprop((dat0 V c).arrays ((dat0 V c).arrAt · cfg0.N) ∗ Pipeline.unscopedRest spec0 c (V c)) ⊢ (unscopedBufs c V' : sProp 𝕄) := by
  rw [Pipeline.unscopedBufs_split₀ cfgs 0 winFacts₀0.arr_unscoped c V']
  refine sep_mono ?_ (Entails.of_eq ?_)
  · unfold Pipeline.arrBufs Dat.arrays
    rw [show (Finset.univ.image (Pipeline.arrRef (cfgs 0).spec)) = {main_arg2, main_v2} from by decide,
      bigSep_insert (by decide), bigSep_singleton, bigSep_W0]
    have h0 : (cfg0.win 0).arr.view.set = Finset.univ := (arr_whole0 0).set_eq_univ
    have h2 : (cfg0.win 2).arr.view.set = Finset.univ := (arr_whole0 2).set_eq_univ
    have e0 : (dat0 V c).arrAt 0 cfg0.N = V c main_arg2 := ((dat0 V c).arrAt_in 0 rfl _).trans (A_eq0 V c 0)
    have e1 : (dat0 V c).arrAt 1 cfg0.N = V c main_arg2 := ((dat0 V c).arrAt_in 1 rfl _).trans (A_eq0 V c 1)
    rw [h0, h2, share0_0, share0_1, share0_2]
    dsimp only
    rw [e0, e1, hrest main_arg2 (by decide), hv2]
    show _ ⊢ iprop((((c : Thread nD τ).loc main_arg2) ↦{fullShare} V c main_arg2) ∗ (((c : Thread nD τ).loc main_v2) ↦{fullShare} (dat0 V c).arrAt 2 cfg0.N))
    iintro ⟨Hl, Hr, Hb⟩
    isplitl [Hl Hr]
    · iapply (pointsTo_share (PosShare.mem_left_op_right fullShare)).2
      isplitl [Hl]; · iexact Hl
      iexact Hr
    iexact Hb
  · unfold Pipeline.unscopedRest
    exact bigSep_congr fun b hb => by
      rw [hrest b fun e => (Finset.mem_sdiff.mp hb).2 (e ▸ (by decide : main_v2 ∈ Finset.univ.image (Pipeline.arrRef (cfgs 0).spec)))]

/-! ## The calls as segments -/

-- a library lemma stated over the pinned configuration unifies with the printed one only when unification may unfold
-- plain definitions in a metavariable's type
set_option backward.isDefEq.respectTransparency.types false in
/-- Call 0 over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_in0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs c (V2 m ρ c) : sProp 𝕄) :=
      arrays_out0 (V1 m ρ) c (V2 m ρ c) (W2_v2 m ρ c) (fun b hb => W2_of_ne m ρ c b hb)
    rw [Pipeline.unscopedBufs_held] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

/-- At call 1's exit each of its arrays holds what the pipeline leaves: an input array what it held, the product
    array its write-backs. -/
theorem arrs_out1 (c : Dev nD) (w : Fin cfg1.W) : (dat1 (V2 m ρ) c).arrAt w cfg1.N = V3 m ρ c (Pipeline.arrRef spec1 w) :=
  match w with
  | ⟨0, _⟩ => (((dat1 (V2 m ρ) c).arrAt_in 0 rfl _).trans (A_eq1 (V2 m ρ) c 0)).trans (W3_of_ne m ρ c main_v0 (by decide)).symm
  | ⟨1, _⟩ => (((dat1 (V2 m ρ) c).arrAt_in 1 rfl _).trans (A_eq1 (V2 m ρ) c 1)).trans (W3_of_ne m ρ c main_v1 (by decide)).symm
  | ⟨2, _⟩ => (((dat1 (V2 m ρ) c).arrAt_in 2 rfl _).trans (A_eq1 (V2 m ρ) c 2)).trans (W3_of_ne m ρ c main_v2 (by decide)).symm
  | ⟨3, _⟩ => (W3_v3 m ρ c).symm
theorem rest_out1 (c : Dev nD) : ∀ b, b ∉ Finset.univ.image (Pipeline.arrRef spec1) → V3 m ρ c b = V2 m ρ c b :=
  fun b hb => W3_of_ne m ρ c b fun e => hb (e ▸ (by decide : main_v3 ∈ Finset.univ.image (Pipeline.arrRef spec1)))

set_option backward.isDefEq.respectTransparency.types false in
/-- Call 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (arrs_out1 m ρ c) (rest_out1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.FoldRead.lean ====
/-
  The buffer contents at the boundaries of @main, read back: no item writes an argument array, so each argument
  reads as launched at every boundary; the two head arrays after the first reshapes are the reshapes of the query and
  key arguments; call 0 changes the bias array only; the returned array is the reshape of the product array.
-/
import proofs.«141737_j71210557768292_1_alg».proof.Proof.KI.Fold
import proofs.«141737_j71210557768292_1_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## What the host stretches leave alone -/

/-- A reference the first two reshapes do not write reads as launched after them. -/
theorem W1_of (c : Dev nD) (r : Ref sig .tc) (h : r ∉ hostOps0_W) :
    W1 m ρ c (Proc.devRef .tc r) = m ((c : Thread nD τ).loc r) :=
  (StableHlo.after_of_writes_sub hostOps0 _ hostOps0_writes h).trans rfl

/-- A reference the last reshape does not write reads after it what it held before. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-! ## No item writes an argument -/

theorem W4_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of_ne m ρ c main_arg0 (by decide)).trans <| W1_of m ρ c main_arg0 (by decide)
theorem W4_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_of_ne m ρ c main_arg1 (by decide)).trans <| W1_of m ρ c main_arg1 (by decide)
theorem W4_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of_ne m ρ c main_arg2 (by decide)).trans <| W1_of m ρ c main_arg2 (by decide)

/-! ## Call 0's entry -/

/-- The position table reads as launched. -/
theorem V1_arg2 (c : Dev nD) : V1 m ρ c main_arg2 = m ((c : Thread nD τ).loc main_arg2) :=
  W1_of m ρ c main_arg2 (by decide)

/-- The query heads are the query argument, reshaped. -/
theorem V1_v0 (c : Dev nD) :
    V1 m ρ c main_v0 = shapeCast S24x2048x64 (m ((c : Thread nD τ).loc main_arg0)) shapeCasts_S2x12x2048x64_S24x2048x64 := by
  show StableHlo.after hostOps0 (W0 m ρ c) (Proc.devRef .tc main_v0) = _
  dsimp only [hostOps0]
  simp only [StableHlo.after_cons, StableHlo.after_nil]
  refine (StableHlo.reshape_result_ne _ _ _ _ _ _ _ (by decide)).trans ?_
  refine (StableHlo.reshape_result _ _ _ _ _ _ _).trans ?_
  rfl

/-- The key heads are the key argument, reshaped. -/
theorem V1_v1 (c : Dev nD) :
    V1 m ρ c main_v1 = shapeCast S24x2048x64 (m ((c : Thread nD τ).loc main_arg1)) shapeCasts_S2x12x2048x64_S24x2048x64 := by
  show StableHlo.after hostOps0 (W0 m ρ c) (Proc.devRef .tc main_v1) = _
  dsimp only [hostOps0]
  simp only [StableHlo.after_cons, StableHlo.after_nil]
  refine (StableHlo.reshape_result _ _ _ _ _ _ _).trans ?_
  rw [StableHlo.reshape_result_ne _ _ _ _ _ _ _ (show main_arg1 ≠ main_v0 by decide)]
  rfl

/-! ## Call 1's entry: call 0 changes the bias array only -/

theorem V2_v0 (c : Dev nD) : V2 m ρ c main_v0 = V1 m ρ c main_v0 := W2_of_ne m ρ c main_v0 (by decide)
theorem V2_v1 (c : Dev nD) : V2 m ρ c main_v1 = V1 m ρ c main_v1 := W2_of_ne m ρ c main_v1 (by decide)
theorem V2_arg2 (c : Dev nD) : V2 m ρ c main_arg2 = V1 m ρ c main_arg2 := W2_of_ne m ρ c main_arg2 (by decide)
/-- The bias array holds what call 0's write-backs leave. -/
theorem V2_v2 (c : Dev nD) : V2 m ρ c main_v2 = (dat0 (V1 m ρ) c).arrAt 2 cfg0.N := W2_v2 m ρ c

/-! ## The returned array -/

/-- The returned array is the product array as call 1 leaves it, reshaped. -/
theorem W4_v4 (c : Dev nD) :
    W4 m ρ c (Proc.devRef .tc main_v4)
      = shapeCast S2x12x2048x2048 (W3 m ρ c (Proc.devRef .tc main_v3)) shapeCasts_S24x2048x2048_S2x12x2048x2048 := by
  show StableHlo.after hostOps2 (W3 m ρ c) (Proc.devRef .tc main_v4) = _
  dsimp only [hostOps2]
  simp only [StableHlo.after_cons, StableHlo.after_nil]
  refine (StableHlo.reshape_result _ _ _ _ _ _ _).trans ?_
  rfl

end Cert.KernelIdeal.Hand

end
-- ==== Proof.Spec.lean ====
/-
  The function both programs compute, index by index, on the extended reals.

  For queries q and keys k of shape [2, 12, 2048, 64] and a position table pe of shape [2048, 64], the result at
  (b, h, t, s) is   σ((∑_d q[b,h,t,d] · k[b,h,s,d]) · 1/8) · ((∑_d pe[t,d] · pe[s,d]) · 1/8),
  with σ x = 1 / (1 + e^(-x)) the logistic function and 1/8 the float word 0x3E000000 (= 1/√64).
  The kernel reaches it in two steps over heads flattened to one axis of 24: first the position bias
  `posBias pe` : [2048, 2048], then the gated product `gate3 q3 k3 pb` : [24, 2048, 2048].
-/
import Idealize.ShloMosaic.PureOps.Ideal
import Idealize.ShloMosaic.Lib.ValueIdx

noncomputable section

open scoped BigOperators

namespace Cert.Spec

open Idealize.ShloMosaic Idealize.ShloMosaic.ValueIdx

/-- The scale 1/8 = 1/√64, as the float word both programs carry. -/
abbrev c8 : EReal := Ideal.ofBits .f32 0x3E000000#32

/-- The position bias at (t, s): the scaled inner product of rows t and s of the position table. -/
def posBiasAt (pe : (⟨2, ![2048, 64]⟩ : Shape).Idx → EReal) (t s : Fin 2048) : EReal :=
  (∑ d : Fin 64, pe (ix2 t d) * pe (ix2 s d)) * c8

/-- The position bias as an array of shape [2048, 2048]. -/
def posBias (pe : (⟨2, ![2048, 64]⟩ : Shape).Idx → EReal) : (⟨2, ![2048, 2048]⟩ : Shape).Idx → EReal :=
  fun i => posBiasAt pe (i 0) (i 1)

/-- The gate at head n and positions (t, s), times a given bias entry: σ(⟨q[n,t,:], k[n,s,:]⟩ · 1/8) · pb[t,s]. -/
def gate3At (q k : (⟨3, ![24, 2048, 64]⟩ : Shape).Idx → EReal) (pb : (⟨2, ![2048, 2048]⟩ : Shape).Idx → EReal)
    (n : Fin 24) (t s : Fin 2048) : EReal :=
  Ideal.logistic ((∑ d : Fin 64, q (ix3 n t d) * k (ix3 n s d)) * c8) * pb (ix2 t s)

/-- The gated product over flattened heads, shape [24, 2048, 2048]. -/
def gate3 (q k : (⟨3, ![24, 2048, 64]⟩ : Shape).Idx → EReal) (pb : (⟨2, ![2048, 2048]⟩ : Shape).Idx → EReal) :
    (⟨3, ![24, 2048, 2048]⟩ : Shape).Idx → EReal :=
  fun i => gate3At q k pb (i 0) (i 1) (i 2)

/-- The result at batch b, head h and positions (t, s). -/
def resultAt (q k : (⟨4, ![2, 12, 2048, 64]⟩ : Shape).Idx → EReal) (pe : (⟨2, ![2048, 64]⟩ : Shape).Idx → EReal)
    (b : Fin 2) (h : Fin 12) (t s : Fin 2048) : EReal :=
  Ideal.logistic ((∑ d : Fin 64, q (ix4 b h t d) * k (ix4 b h s d)) * c8) * posBiasAt pe t s

/-- The result as an array of shape [2, 12, 2048, 2048]. -/
def result (q k : (⟨4, ![2, 12, 2048, 64]⟩ : Shape).Idx → EReal) (pe : (⟨2, ![2048, 64]⟩ : Shape).Idx → EReal) :
    (⟨4, ![2, 12, 2048, 2048]⟩ : Shape).Idx → EReal :=
  fun i => resultAt q k pe (i 0) (i 1) (i 2) (i 3)

end Cert.Spec

end
-- ==== Proof.SpecCompose.lean ====
/-
  The specification's two-step form composes across the two reshapes.

  A reshape keeps the row-major order of the elements. Index (b, h, t, s) of an array of shape [2, 12, 2048, 2048]
  sits at row-major position ((b · 12 + h) · 2048 + t) · 2048 + s, which is the position of (12 · b + h, t, s) in shape
  [24, 2048, 2048]; likewise (b, h, t, d) of [2, 12, 2048, 64] and (12 · b + h, t, d) of [24, 2048, 64]. So the gated
  product over the 24 flattened heads, taken of the flattened queries and keys and of the position bias and then cut
  back into batches and heads, is the result index by index.
-/
import proofs.«141737_j71210557768292_1_alg».proof.Proof.Spec
import Idealize.ShloMosaic.Lib.Pipeline.Value
import Idealize.ShloMosaic.Lib.ValueIdx
import Idealize.ShloMosaic.Lib.ValueLayout

noncomputable section

open scoped BigOperators

namespace Cert.Spec

open Idealize.ShloMosaic Idealize.ShloMosaic.ValueIdx

/-- Batch b and head h as one flattened head n = 12 · b + h. -/
def flatHead (b : Fin 2) (h : Fin 12) : Fin 24 := ⟨12 * b.val + h.val, by have := b.isLt; have := h.isLt; omega⟩

theorem flatHead_val (b : Fin 2) (h : Fin 12) : (flatHead b h).val = 12 * b.val + h.val := rfl

/-- An array of shape [2, 12, 2048, D] reshaped to [24, 2048, D] reads at (12 · b + h, t, d) the array at (b, h, t, d):
    the two indices have one row-major position. -/
theorem flatten_apply {α : Type} {D : Nat} (x : (⟨4, ![2, 12, 2048, D]⟩ : Shape).Idx → α)
    (h1 : (⟨4, ![2, 12, 2048, D]⟩ : Shape).ShapeCasts ⟨3, ![24, 2048, D]⟩)
    (b : Fin 2) (h : Fin 12) (t : Fin 2048) (d : Fin D) :
    shapeCast ⟨3, ![24, 2048, D]⟩ x h1 (ix3 (flatHead b h) t d) = x (ix4 b h t d) :=
  shapeCast_apply x h1 (ix3 (flatHead b h) t d) (ix4 b h t d) (by
    rw [Shape.rowMajor_val_four, Shape.rowMajor_val_three]
    show ((b.val * 12 + h.val) * 2048 + t.val) * D + d.val = ((12 * b.val + h.val) * 2048 + t.val) * D + d.val
    rw [Nat.mul_comm b.val 12])

/-- An array of shape [24, 2048, D] reshaped to [2, 12, 2048, D] reads at (b, h, t, d) the array at (12 · b + h, t, d). -/
theorem unflatten_apply {α : Type} {D : Nat} (y : (⟨3, ![24, 2048, D]⟩ : Shape).Idx → α)
    (h2 : (⟨3, ![24, 2048, D]⟩ : Shape).ShapeCasts ⟨4, ![2, 12, 2048, D]⟩)
    (b : Fin 2) (h : Fin 12) (t : Fin 2048) (d : Fin D) :
    shapeCast ⟨4, ![2, 12, 2048, D]⟩ y h2 (ix4 b h t d) = y (ix3 (flatHead b h) t d) :=
  shapeCast_apply y h2 (ix4 b h t d) (ix3 (flatHead b h) t d) (by
    rw [Shape.rowMajor_val_four, Shape.rowMajor_val_three]
    show ((12 * b.val + h.val) * 2048 + t.val) * D + d.val = ((b.val * 12 + h.val) * 2048 + t.val) * D + d.val
    rw [Nat.mul_comm b.val 12])

/-- The gated product of the flattened queries and keys and of the position bias, cut back into batches and heads, is
    the result. -/
theorem result_eq_compose (q k : (⟨4, ![2, 12, 2048, 64]⟩ : Shape).Idx → EReal) (pe : (⟨2, ![2048, 64]⟩ : Shape).Idx → EReal)
    (h1 : (⟨4, ![2, 12, 2048, 64]⟩ : Shape).ShapeCasts ⟨3, ![24, 2048, 64]⟩)
    (h2 : (⟨3, ![24, 2048, 2048]⟩ : Shape).ShapeCasts ⟨4, ![2, 12, 2048, 2048]⟩) :
    shapeCast ⟨4, ![2, 12, 2048, 2048]⟩
      (gate3 (shapeCast ⟨3, ![24, 2048, 64]⟩ q h1) (shapeCast ⟨3, ![24, 2048, 64]⟩ k h1) (posBias pe)) h2
      = result q k pe := by
  funext i
  obtain ⟨b, h, t, s, rfl⟩ : ∃ (b : Fin 2) (h : Fin 12) (t s : Fin 2048), i = ix4 b h t s := ⟨_, _, _, _, eq_ix4 i⟩
  rw [unflatten_apply]
  show gate3At _ _ (posBias pe) (flatHead b h) t s = resultAt q k pe b h t s
  unfold gate3At resultAt
  simp only [flatten_apply]
  rfl

end Cert.Spec

end
-- ==== Proof.Value0.lean ====
/-
  The value of the first call at the ideal instance: the array it leaves is the position bias.

  At each grid point the body stores, over the whole output block, the scaled product of the point's 512 rows of
  the position table with the whole table transposed. Read at an index this is the scaled inner product of two
  rows of the table; the four blocks of 512 rows tile the [2048, 2048] array, so the array ends holding the
  position bias everywhere.
-/
import proofs.«141737_j71210557768292_1_alg».proof.Proof.KI.Data
import proofs.«141737_j71210557768292_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand Idealize.ShloMosaic Idealize.ShloMosaic.ValueIdx
open Idealize.ShloMosaic.TcCoe
open Idealize.ShloMosaic.Pipeline (Dat)
open Facts₀

/-! ## The payload at an index -/

section PayloadAtIndex

/-- Left operand index of the product at output index i, contraction index q: axis 0 is the output's row. -/
theorem lhs_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
/-- … and axis 1 is the contraction coordinate. -/
theorem lhs_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
/-- Right operand index: axis 0 is the contraction coordinate, -/
theorem rhs_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
/-- … and axis 1 is the output's column. -/
theorem rhs_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- The product's left operand index at (p, s) and contraction coordinate d is (p, d). -/
theorem lhsIdx_eq (p : Fin 512) (s : Fin 2048) (d : Fin 64) :
    dot_S512x64_S64x2048_S512x2048_1_0_0_1_n_n.lhsIdx (ix2 p s)
      ((contrEquiv1 dot_S512x64_S64x2048_S512x2048_1_0_0_1_n_n 64 rfl rfl).symm d) = ix2 p d := by
  have hd := contrEquiv1_symm_val dot_S512x64_S64x2048_S512x2048_1_0_0_1_n_n 64 rfl rfl d
  funext a
  apply Fin.ext
  match a with
  | ⟨0, _⟩ => exact lhs_0 _ _
  | ⟨1, _⟩ => exact (lhs_1 _ _).trans hd

/-- The product's right operand index at (p, s) and contraction coordinate d is (d, s). -/
theorem rhsIdx_eq (p : Fin 512) (s : Fin 2048) (d : Fin 64) :
    dot_S512x64_S64x2048_S512x2048_1_0_0_1_n_n.rhsIdx (ix2 p s)
      ((contrEquiv1 dot_S512x64_S64x2048_S512x2048_1_0_0_1_n_n 64 rfl rfl).symm d) = ix2 d s := by
  have hd := contrEquiv1_symm_val dot_S512x64_S64x2048_S512x2048_1_0_0_1_n_n 64 rfl rfl d
  funext a
  apply Fin.ext
  match a with
  | ⟨0, _⟩ => exact (rhs_0 _ _).trans hd
  | ⟨1, _⟩ => exact rhs_1 _ _

/-- The body's payload at (p, s): the inner product of row p of the rows block with row s of the table, scaled. -/
theorem pay_apply (x0 : Vec Ideal S512x64 .f32) (x1 : Vec Ideal S2048x64 .f32) (p : Fin 512) (s : Fin 2048) :
    k0_pay1 x0 x1 (ix2 p s) = (∑ d : Fin 64, x0 (ix2 p d) * x1 (ix2 s d)) * Cert.Spec.c8 := by
  unfold k0_pay1
  refine (mulf_apply _ _ _).trans ?_
  rw [broadcast_apply]
  refine congrArg (· * Cert.Spec.c8) ?_
  refine (Ideal.matmul_constant_zero_apply dot_S512x64_S64x2048_S512x2048_1_0_0_1_n_n none _ _ (ix2 p s)).trans ?_
  rw [← Equiv.sum_comp (contrEquiv1 dot_S512x64_S64x2048_S512x2048_1_0_0_1_n_n 64 rfl rfl).symm]
  refine Finset.sum_congr rfl fun d _ => ?_
  rw [lhsIdx_eq, rhsIdx_eq, truncf_apply, transpose_ix2_apply, truncf_apply]

end PayloadAtIndex

/-! ## What a point writes back -/

/-- The payload of a rows block taken from row 512·n on and of the whole table, at a block index y, is the position
    bias at the array index i with the same column and row 512·n further down. -/
theorem pay_block (A : S2048x64.Idx → EReal) (x0 : Vec Ideal S512x64 .f32) (x1 : Vec Ideal S2048x64 .f32) (n : ℕ)
    (h0 : ∀ (x : S512x64.Idx) (k : S2048x64.Idx), (k 0).val = 512 * n + (x 0).val → (k 1).val = (x 1).val → x0 x = A k)
    (h1 : ∀ x : S2048x64.Idx, x1 x = A x)
    (y : S512x2048.Idx) (i : S2048x2048.Idx) (hi0 : (i 0).val = 512 * n + (y 0).val) (hi1 : (i 1).val = (y 1).val) :
    k0_pay1 x0 x1 y = Cert.Spec.posBias A i := by
  have ey : y = ix2 (n0 := 512) (n1 := 2048) (y 0) (y 1) := eq_ix2 y
  refine (congrArg (k0_pay1 x0 x1) ey).trans ((pay_apply x0 x1 (y 0) (y 1)).trans ?_)
  unfold Cert.Spec.posBias Cert.Spec.posBiasAt
  have e1 : i 1 = y 1 := Fin.ext hi1
  rw [e1]
  refine congrArg (· * Cert.Spec.c8) (Finset.sum_congr rfl fun d _ => ?_)
  rw [h0 (ix2 (y 0) d) (ix2 (i 0) d) hi0 rfl, h1]

section Blocks

variable (V : (c : Dev nD) → (b : Ref sig .tc) → Buf (Elt Ideal) ((c : Thread nD τ).loc b))

theorem zeros2 : (![0, 0] : Fin 2 → Nat) = fun _ => 0 := funext fun a => by fin_cases a <;> rfl

/-- The index maps, decided over the four points: the rows window and the output window are at block row t, the table
    window at block (0, 0). -/
theorem idx_vals : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows window's block at point t is rows 512·t … 512·t + 511 of the table. -/
theorem iblk_rows (c : Dev nD) (t : Fin cfg0.N) (x : S512x64.Idx) (k : S2048x64.Idx)
    (hk0 : (k 0).val = 512 * t.val + (x 0).val) (hk1 : (k 1).val = (x 1).val) :
    (iblk0 (F := Ideal) V c 0 t : Vec Ideal S512x64 .f32) x = (V c main_arg2 : S2048x64.Idx → EReal) k := by
  obtain ⟨e0, e1, -⟩ := idx_vals t
  unfold iblk0
  rw [View.read_apply]
  show V c main_arg2 _ = V c main_arg2 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 64 + 1 * (x 1).val = (k 1).val; rw [e1, hk1]; omega

/-- The table window's block at every point is the whole table. -/
theorem iblk_table (c : Dev nD) (t : Fin cfg0.N) (x : S2048x64.Idx) :
    (iblk0 (F := Ideal) V c 1 t : Vec Ideal S2048x64 .f32) x = (V c main_arg2 : S2048x64.Idx → EReal) x := by
  obtain ⟨-, -, e0, e1, -⟩ := idx_vals t
  unfold iblk0
  rw [View.read_apply]
  show V c main_arg2 _ = V c main_arg2 _
  congr 1
  funext a
  apply Fin.ext
  match a with
  | ⟨0, _⟩ => show win0_1.index t (0 : Fin 2) * 2048 + 1 * (x 0).val = (x 0).val; rw [e0]; omega
  | ⟨1, _⟩ => show win0_1.index t (1 : Fin 2) * 64 + 1 * (x 1).val = (x 1).val; rw [e1]; omega

/-- What point t writes back is block t of the position bias of the table as the region finds it. -/
theorem flushed_eq (c : Dev nD) (t : Fin cfg0.N) :
    (dat0 (F := Ideal) V c).flushed 2 t = ((cfg0.win 2).blk t).view.read (Elt Ideal) (Cert.Spec.posBias (V c main_arg2)) := by
  show (cfg0.win 2).cut (grid0.coords t) ((dat0 (F := Ideal) V c).after 2 t) = _
  rw [after0_2]
  unfold out0_2
  rw [View.canon_unit_zero zeros2]
  simp only [View.ld_unit_zero (S := S512x64) zeros2, View.ld_unit_zero (S := S2048x64) zeros2]
  obtain ⟨-, -, -, -, e0, e1⟩ := idx_vals t
  funext j
  rw [View.read_apply]
  refine pay_block (V c main_arg2) _ _ t.val (iblk_rows V c t) (iblk_table V c t) _ _ ?_ ?_
  · show win0_2.index t (0 : Fin 2) * 512 + 1 * (j 0).val = 512 * t.val + (j 0).val
    rw [e0]; omega
  · show win0_2.index t (1 : Fin 2) * 2048 + 1 * (j 1).val = (j 1).val
    rw [e1]; omega

end Blocks

/-! ## The array after the run -/

section Cover

variable (V : (c : Dev nD) → (b : Ref sig .tc) → Buf (Elt Ideal) ((c : Thread nD τ).loc b))

/-- An index of the array is in point t's block iff each coordinate is in the block's range on its axis. -/
theorem mem_blk (t : Fin cfg0.N) (i : S2048x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2).slice (win0_2.rect t)).set ↔ _
  rw [View.set_slice_whole, Rect.mem_set_unit]
  exact Iff.rfl

/-- Every block row is some point's. -/
theorem idx_onto : ∀ q : Fin 4, ∃ t : Fin cfg0.N, win0_2.index t = ![q.val, 0] :=
  (by decide +kernel : ∀ q : Fin 4, ∃ t : Fin grid0.N, win0_2.index t = ![q.val, 0])

/-- Row r of the array is in the block of the point whose block row is r / 512: the blocks cover the array. -/
theorem covered (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The array the first call leaves is the position bias of the table as the region finds it. -/
theorem posBias_array (c : Dev nD) :
    ((dat0 (F := Ideal) V c).arrAt 2 cfg0.N : S2048x2048.Idx → EReal) = Cert.Spec.posBias (V c main_arg2) :=
  (dat0 (F := Ideal) V c).arrAt_eq_of_cover 2 (Cert.Spec.posBias (V c main_arg2)) (fun t _ => flushed_eq V c t) covered

end Cover

end Cert.KernelIdeal.HandValue

end
-- ==== Proof.Value1Payload.lean ====
/-
  The value the body of the gated product stores, index by index.

  With x0 and x1 two blocks of shape [1, 1024, 64] and x2 a block of shape [1024, 1024], the body stores at (0, p, s)
      σ((∑_d x0[0,p,d] · x1[0,s,d]) · 1/8) · x2[p,s] :
  the two [1, 1024, 64] blocks lose their unit axis, the second is transposed, their product into the zero accumulator is
  the plain sum over the 64 contracted positions, a change of float format is the identity on the extended reals, and the
  scale, the logistic function and the last product act entry by entry.
-/
import proofs.«141737_j71210557768292_1_alg».proof.Proof.KI.Data
import proofs.«141737_j71210557768292_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue1

open Cert.KernelIdeal Cert.KernelIdeal.Gen Cert.KernelIdeal.Hand Idealize.ShloMosaic Idealize.ShloMosaic.ValueIdx

/-- The left operand's index of the product's (i, q) term: row `i 0`, … -/
theorem lhs_row (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- … contracted position `q`; -/
theorem lhs_col (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- the right operand's: contracted position `q`, … -/
theorem rhs_row (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- … column `i 1`. -/
theorem rhs_col (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a [1024, 64] matrix and a [64, 1024] matrix into the zero accumulator, read at (p, s): the sum over
    the 64 contracted positions. -/
theorem matmul_zero_at (A : FVec Ideal S1024x64 .bf16) (B : FVec Ideal S64x1024 .bf16) (p s : Fin 1024) :
    FloatOps.matmul dot_S1024x64_S64x1024_S1024x1024_1_0_0_1_n_n none A B (constant (F := Ideal) S1024x1024 .f32 0x00000000#32) (ix2 p s)
      = ∑ d : Fin 64, A (ix2 p d) * B (ix2 d s) := by
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p s) ((contrEquiv1 dot_S1024x64_S64x1024_S1024x1024_1_0_0_1_n_n 64 rfl rfl).symm k) = ix2 p k := funext fun a => Fin.ext (by
    match a with
    | ⟨0, _⟩ => exact lhs_row _ _
    | ⟨1, _⟩ => exact (lhs_col _ _).trans hk)
  have er : dot_S1024x64_S64x1024_S1024x1024_1_0_0_1_n_n.rhsIdx (ix2 p s) ((contrEquiv1 dot_S1024x64_S64x1024_S1024x1024_1_0_0_1_n_n 64 rfl rfl).symm k) = ix2 k s := funext fun a => Fin.ext (by
    match a with
    | ⟨0, _⟩ => exact (rhs_row _ _).trans hk
    | ⟨1, _⟩ => exact rhs_col _ _)
  rw [el, er]

/-- The body's stored value at (0, p, s): the logistic of the scaled inner product of row p of the first block and
    row s of the second, times the third block's entry (p, s). -/
theorem gate_payload_at (x0 x1 : Vec Ideal S1x1024x64 .f32) (x2 : Vec Ideal S1024x1024 .f32) (p s : Fin 1024) :
    k1_pay1 x0 x1 x2 (ix3 (0 : Fin 1) p s)
      = Ideal.logistic ((∑ d : Fin 64, x0 (ix3 (0 : Fin 1) p d) * x1 (ix3 (0 : Fin 1) s d)) * Cert.Spec.c8) * x2 (ix2 p s) := by
  unfold k1_pay1
  refine (shapeCast_ab_1ab_apply _ _ 0 p s).trans ?_
  show Ideal.logistic (FloatOps.matmul dot_S1024x64_S64x1024_S1024x1024_1_0_0_1_n_n none _ _ (constant (F := Ideal) S1024x1024 .f32 0x00000000#32) (ix2 p s) * Cert.Spec.c8)
      * shapeCast S1024x1024 x2 shapeCasts_S1024x1024_S1024x1024 (ix2 p s) = _
  rw [shapeCast_self, matmul_zero_at]
  refine congrArg (fun z => Ideal.logistic (z * Cert.Spec.c8) * x2 (ix2 p s)) (Finset.sum_congr rfl fun d _ => ?_)
  -- a change of float format is the identity on the extended reals
  refine congrArg₂ (· * ·) ?_ ?_
  · show shapeCast S1024x64 x0 shapeCasts_S1x1024x64_S1024x64 (ix2 p d) = _
    exact shapeCast_1ab_ab_apply x0 _ p d
  · refine (transpose_ix2_apply _ _ d s).trans ?_
    show shapeCast S1024x64 x1 shapeCasts_S1x1024x64_S1024x64 (ix2 s d) = _
    exact shapeCast_1ab_ab_apply x1 _ s d

end Cert.KernelIdeal.HandValue1

end
-- ==== Proof.Value1.lean ====
/-
  The array the gated product's call leaves is the gated product, index by index.

  The call runs over a grid of 2 × 2 × 24 points; the point with coordinates (i, j, b) reads rows 1024 i … of head b of
  the queries, rows 1024 j … of head b of the keys and the tile (i, j) of the bias, and writes back the tile (b, i, j) of
  the result. What it writes is that tile of ONE function of the three arrays — `Cert.Spec.gate3` — and the 96 tiles
  cover the [24, 2048, 2048] result, so the array ends holding that function.
-/
import proofs.«141737_j71210557768292_1_alg».proof.Proof.Value1Payload

noncomputable section

open scoped BigOperators

namespace Cert.KernelIdeal.HandValue1

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the grid of 2 × 2 × 24 points: point `t` has coordinates
    (t / 48, t / 24 % 2, t % 24) = (i, j, b); the windows' block indices there are (b, i, 0), (b, j, 0), (i, j) and
    (b, i, j). -/
theorem index_maps : ∀ t : Fin cfg1.N,
    win1_0.index t (0 : Fin 3) = t.val % 24 ∧ win1_0.index t (1 : Fin 3) = t.val / 48 ∧ win1_0.index t (2 : Fin 3) = 0
    ∧ win1_1.index t (0 : Fin 3) = t.val % 24 ∧ win1_1.index t (1 : Fin 3) = t.val / 24 % 2 ∧ win1_1.index t (2 : Fin 3) = 0
    ∧ win1_2.index t (0 : Fin 2) = t.val / 48 ∧ win1_2.index t (1 : Fin 2) = t.val / 24 % 2
    ∧ win1_3.index t (0 : Fin 3) = t.val % 24 ∧ win1_3.index t (1 : Fin 3) = t.val / 48 ∧ win1_3.index t (2 : Fin 3) = t.val / 24 % 2 :=
  (by decide +kernel : ∀ t : Fin grid1.N, _)

theorem grid_size : cfg1.N = 96 := (by decide : grid1.N = 96)

/-- The query block at point `t`: rows `1024 i …` of head `b`. -/
theorem query_block_at (c : Dev nD) (t : Fin cfg1.N) (y : S1x1024x64.Idx) (z : S24x2048x64.Idx)
    (h0 : (z 0).val = t.val % 24) (h1 : (z 1).val = t.val / 48 * 1024 + (y 1).val) (h2 : (z 2).val = (y 2).val) :
    (iblk1 V c 0 t : Vec Ideal S1x1024x64 .f32) y = (V c main_v0 : S24x2048x64.Idx → EReal) z := by
  obtain ⟨e0, e1, e2, -⟩ := index_maps t
  unfold iblk1
  rw [View.read_apply]
  show V c main_v0 _ = V c main_v0 _
  refine congrArg _ (funext fun a => Fin.ext ?_)
  have hy : (y 0).val < 1 := (y 0).isLt
  match a with
  | ⟨0, _⟩ => show win1_0.index t (0 : Fin 3) * 1 + 1 * (y 0).val = (z 0).val; rw [e0, h0]; omega
  | ⟨1, _⟩ => show win1_0.index t (1 : Fin 3) * 1024 + 1 * (y 1).val = (z 1).val; rw [e1, h1]; omega
  | ⟨2, _⟩ => show win1_0.index t (2 : Fin 3) * 64 + 1 * (y 2).val = (z 2).val; rw [e2, h2]; omega

/-- The key block at point `t`: rows `1024 j …` of head `b`. -/
theorem key_block_at (c : Dev nD) (t : Fin cfg1.N) (y : S1x1024x64.Idx) (z : S24x2048x64.Idx)
    (h0 : (z 0).val = t.val % 24) (h1 : (z 1).val = t.val / 24 % 2 * 1024 + (y 1).val) (h2 : (z 2).val = (y 2).val) :
    (iblk1 V c 1 t : Vec Ideal S1x1024x64 .f32) y = (V c main_v1 : S24x2048x64.Idx → EReal) z := by
  obtain ⟨-, -, -, e0, e1, e2, -⟩ := index_maps t
  unfold iblk1
  rw [View.read_apply]
  show V c main_v1 _ = V c main_v1 _
  refine congrArg _ (funext fun a => Fin.ext ?_)
  have hy : (y 0).val < 1 := (y 0).isLt
  match a with
  | ⟨0, _⟩ => show win1_1.index t (0 : Fin 3) * 1 + 1 * (y 0).val = (z 0).val; rw [e0, h0]; omega
  | ⟨1, _⟩ => show win1_1.index t (1 : Fin 3) * 1024 + 1 * (y 1).val = (z 1).val; rw [e1, h1]; omega
  | ⟨2, _⟩ => show win1_1.index t (2 : Fin 3) * 64 + 1 * (y 2).val = (z 2).val; rw [e2, h2]; omega

/-- The bias block at point `t`: the tile (i, j). -/
theorem bias_block_at (c : Dev nD) (t : Fin cfg1.N) (y : S1024x1024.Idx) (z : S2048x2048.Idx)
    (h0 : (z 0).val = t.val / 48 * 1024 + (y 0).val) (h1 : (z 1).val = t.val / 24 % 2 * 1024 + (y 1).val) :
    (iblk1 V c 2 t : Vec Ideal S1024x1024 .f32) y = (V c main_v2 : S2048x2048.Idx → EReal) z := by
  obtain ⟨-, -, -, -, -, -, e0, e1, -⟩ := index_maps t
  unfold iblk1
  rw [View.read_apply]
  show V c main_v2 _ = V c main_v2 _
  refine congrArg _ (funext fun a => Fin.ext ?_)
  match a with
  | ⟨0, _⟩ => show win1_2.index t (0 : Fin 2) * 1024 + 1 * (y 0).val = (z 0).val; rw [e0, h0]; omega
  | ⟨1, _⟩ => show win1_2.index t (1 : Fin 2) * 1024 + 1 * (y 1).val = (z 1).val; rw [e1, h1]; omega

/-- One tile of the gated product: if the three blocks are rows `1024 i …` of head `b` of the queries, rows `1024 j …` of
    head `b` of the keys and the tile (i, j) of the bias, the body's stored value at (0, p, s) is the gated product at
    (b, 1024 i + p, 1024 j + s). -/
theorem gate_tile_at (q k : S24x2048x64.Idx → EReal) (pb : S2048x2048.Idx → EReal)
    (x0 x1 : Vec Ideal S1x1024x64 .f32) (x2 : Vec Ideal S1024x1024 .f32) (b : Fin 24) (i j : Nat) (hi : i < 2) (hj : j < 2)
    (h0 : ∀ (p : Fin 1024) (d : Fin 64), x0 (ix3 (0 : Fin 1) p d) = q (ix3 b (⟨i * 1024 + p.val, by omega⟩ : Fin 2048) d))
    (h1 : ∀ (s : Fin 1024) (d : Fin 64), x1 (ix3 (0 : Fin 1) s d) = k (ix3 b (⟨j * 1024 + s.val, by omega⟩ : Fin 2048) d))
    (h2 : ∀ (p s : Fin 1024), x2 (ix2 p s) = pb (ix2 (⟨i * 1024 + p.val, by omega⟩ : Fin 2048) (⟨j * 1024 + s.val, by omega⟩ : Fin 2048)))
    (y : S1x1024x1024.Idx) (z : S24x2048x2048.Idx)
    (hz0 : (z 0).val = b.val) (hz1 : (z 1).val = i * 1024 + (y 1).val) (hz2 : (z 2).val = j * 1024 + (y 2).val) :
    k1_pay1 x0 x1 x2 y = Cert.Spec.gate3 q k pb z := by
  obtain ⟨u, p, s, rfl⟩ : ∃ (u : Fin 1) (p s : Fin 1024), y = ix3 u p s := ⟨y 0, y 1, y 2, eq_ix3 y⟩
  obtain rfl : u = 0 := Fin.ext (by omega)
  have hp : i * 1024 + p.val < 2048 := by have := p.isLt; omega
  have hs : j * 1024 + s.val < 2048 := by have := s.isLt; omega
  obtain ⟨z0, z1, z2, rfl⟩ : ∃ (z0 : Fin 24) (z1 z2 : Fin 2048), z = ix3 z0 z1 z2 := ⟨z 0, z 1, z 2, eq_ix3 z⟩
  obtain rfl : z0 = b := Fin.ext hz0
  obtain rfl : z1 = ⟨i * 1024 + p.val, hp⟩ := Fin.ext hz1
  obtain rfl : z2 = ⟨j * 1024 + s.val, hs⟩ := Fin.ext hz2
  rw [gate_payload_at]
  show _ = Ideal.logistic ((∑ d : Fin 64, q (ix3 z0 _ d) * k (ix3 z0 _ d)) * Cert.Spec.c8) * pb (ix2 _ _)
  rw [h2]
  refine congrArg (fun w => Ideal.logistic (w * Cert.Spec.c8) * _) (Finset.sum_congr rfl fun d _ => ?_)
  rw [h0, h1]

/-- WHAT POINT `t` WRITES BACK is block `t` of the gated product of the arrays as the region finds them. -/
theorem written_back_eq (c : Dev nD) (t : Fin cfg1.N) :
    (dat1 (F := Ideal) V c).flushed 3 t
      = ((cfg1.win 3).blk t).view.read (Elt Ideal) (Cert.Spec.gate3 (V c main_v0) (V c main_v1) (V c main_v2)) := by
  show (cfg1.win 3).cut (grid1.coords t) ((dat1 (F := Ideal) V c).after 3 t) = _
  rw [after1_3]
  unfold out1_3
  rw [View.canon_unit_zero zeros3]
  simp only [View.ld_unit_zero (S := S1x1024x64) zeros3, View.ld_unit_zero (S := S1024x1024) zeros2]
  obtain ⟨-, -, -, -, -, -, -, -, e0, e1, e2⟩ := index_maps t
  have ht : t.val < 96 := t.isLt.trans_eq grid_size
  funext y
  show k1_pay1 (iblk1 V c 0 t) (iblk1 V c 1 t) (iblk1 V c 2 t) ((cfg1.win 3).xinj (grid1.coords t) y)
    = Cert.Spec.gate3 (V c main_v0) (V c main_v1) (V c main_v2) (((cfg1.win 3).blk t).view.emb y)
  have hy : (y 0).val < 1 := (y 0).isLt
  refine gate_tile_at (V c main_v0) (V c main_v1) (V c main_v2) (iblk1 V c 0 t) (iblk1 V c 1 t) (iblk1 V c 2 t)
    ⟨t.val % 24, Nat.mod_lt _ (by decide)⟩ (t.val / 48) (t.val / 24 % 2) (by omega) (by omega) ?_ ?_ ?_ _ _ ?_ ?_ ?_
  · intro p d; exact query_block_at V c t _ _ rfl rfl rfl
  · intro s d; exact key_block_at V c t _ _ rfl rfl rfl
  · intro p s; exact bias_block_at V c t _ _ rfl rfl
  · show win1_3.index t (0 : Fin 3) * 1 + 1 * (y 0).val = t.val % 24; rw [e0]; omega
  · show win1_3.index t (1 : Fin 3) * 1024 + 1 * (y 1).val = t.val / 48 * 1024 + (y 1).val; rw [e1]; omega
  · show win1_3.index t (2 : Fin 3) * 1024 + 1 * (y 2).val = t.val / 24 % 2 * 1024 + (y 2).val; rw [e2]; omega

/-- An index of the array is in point `t`'s block iff each coordinate is in the block's range on its axis. -/
theorem mem_block (t : Fin cfg1.N) (z : S24x2048x2048.Idx) :
    z ∈ ((cfg1.win 3).blk t).view.set ↔ ∀ a : Fin 3, win1_3.index t a * S1x1024x1024.size a ≤ (z a).val
      ∧ (z a).val < win1_3.index t a * S1x1024x1024.size a + S1x1024x1024.size a := by
  show z ∈ ((View.whole main_v3).slice (win1_3.rect t)).set ↔ _
  rw [View.set_slice_whole, Rect.mem_set_unit]
  exact Iff.rfl

/-- The blocks tile the array: element (n, r, s) is in the block of the point with coordinates (r / 1024, s / 1024, n). -/
theorem covered (z : S24x2048x2048.Idx) :
    ∃ t : Fin cfg1.N, (cfg1.win 3).flush t = true ∧ z ∈ ((cfg1.win 3).blk t).view.set := by
  have h0 : (z 0).val < 24 := (z 0).isLt
  have h1 : (z 1).val < 2048 := (z 1).isLt
  have h2 : (z 2).val < 2048 := (z 2).isLt
  have hN : (z 1).val / 1024 * 48 + (z 2).val / 1024 * 24 + (z 0).val < cfg1.N := by rw [grid_size]; omega
  obtain ⟨-, -, -, -, -, -, -, -, e0, e1, e2⟩ := index_maps ⟨_, hN⟩
  refine ⟨⟨_, hN⟩, flush1_3 _, ?_⟩
  rw [mem_block]
  intro a
  match a with
  | ⟨0, _⟩ =>
    show win1_3.index ⟨_, hN⟩ (0 : Fin 3) * 1 ≤ (z 0).val ∧ (z 0).val < win1_3.index ⟨_, hN⟩ (0 : Fin 3) * 1 + 1
    rw [e0]; show ((z 1).val / 1024 * 48 + (z 2).val / 1024 * 24 + (z 0).val) % 24 * 1 ≤ _ ∧ _ < ((z 1).val / 1024 * 48 + (z 2).val / 1024 * 24 + (z 0).val) % 24 * 1 + 1
    omega
  | ⟨1, _⟩ =>
    show win1_3.index ⟨_, hN⟩ (1 : Fin 3) * 1024 ≤ (z 1).val ∧ (z 1).val < win1_3.index ⟨_, hN⟩ (1 : Fin 3) * 1024 + 1024
    rw [e1]; show ((z 1).val / 1024 * 48 + (z 2).val / 1024 * 24 + (z 0).val) / 48 * 1024 ≤ _ ∧ _ < ((z 1).val / 1024 * 48 + (z 2).val / 1024 * 24 + (z 0).val) / 48 * 1024 + 1024
    omega
  | ⟨2, _⟩ =>
    show win1_3.index ⟨_, hN⟩ (2 : Fin 3) * 1024 ≤ (z 2).val ∧ (z 2).val < win1_3.index ⟨_, hN⟩ (2 : Fin 3) * 1024 + 1024
    rw [e2]; show ((z 1).val / 1024 * 48 + (z 2).val / 1024 * 24 + (z 0).val) / 24 % 2 * 1024 ≤ _ ∧ _ < ((z 1).val / 1024 * 48 + (z 2).val / 1024 * 24 + (z 0).val) / 24 % 2 * 1024 + 1024
    omega

/-- THE ARRAY the gated product's call leaves: the gated product of the arrays as the region finds them. -/
theorem gate_array (c : Dev nD) :
    ((dat1 (F := Ideal) V c).arrAt 3 cfg1.N : S24x2048x2048.Idx → EReal)
      = Cert.Spec.gate3 (V c main_v0) (V c main_v1) (V c main_v2) :=
  (dat1 (F := Ideal) V c).arrAt_eq_of_cover 3 (Cert.Spec.gate3 (V c main_v0) (V c main_v1) (V c main_v2))
    (fun t _ => written_back_eq V c t) covered

end Cert.KernelIdeal.HandValue1

end
-- ==== Proof.KernelValue.lean ====
/-
  The kernel program's result is the specification of the launch arguments.

  Between the items of the host program the buffers hold: the launch contents; after the two reshapes, the queries and
  keys flattened to 24 heads; after the first call, the position bias of the position table; after the second call, the
  gated product of the flattened queries and keys and of that bias; after the last reshape, the product cut back into
  batches and heads. Reading these one after the other, the result buffer holds the gated product of the flattened launch
  queries and keys and of the position bias of the launch table, cut back — which is the result, index by index.
-/
import proofs.«141737_j71210557768292_1_alg».proof.Proof.KI.Fold
import proofs.«141737_j71210557768292_1_alg».proof.Proof.SpecCompose
import proofs.«141737_j71210557768292_1_alg».proof.Proof.KI.FoldRead
import proofs.«141737_j71210557768292_1_alg».proof.Proof.Value0
import proofs.«141737_j71210557768292_1_alg».proof.Proof.Value1

set_option maxRecDepth 16384

noncomputable section

namespace Cert.KernelIdeal.HandValue2

open Cert.KernelIdeal Cert.KernelIdeal.Gen Cert.KernelIdeal.Hand Idealize.ShloMosaic Idealize.ShloMosaic.TcCoe
open Idealize.ShloMosaic.Pipeline (Dat)

variable (m : (ℓ : Loc nD τ sig) → Buf (Elt Ideal) ℓ) (ρ : Dev nD → PrngReg)

/-- The chain of readings, from the facts it uses: the last reshape reads the product array (`hW4`), which holds the
    gated product of the second call's entry contents (`hG`); those are the flattened launch queries and keys
    (`hV2v0`, `hV2v1`, `hV1v0`, `hV1v1`) and the bias array the first call left (`hV2v2`), the position bias (`hP`) of
    the launch table (`hV1a2`). What remains is the specification's two-step form, which composes to the result. -/
theorem kernel_value_of (c : Dev nD)
    (hW4 : W4 (F := Ideal) m ρ c (Proc.devRef .tc main_v4)
      = shapeCast S2x12x2048x2048 (W3 m ρ c (Proc.devRef .tc main_v3)) Facts₀.shapeCasts_S24x2048x2048_S2x12x2048x2048)
    (hG : ((dat1 (F := Ideal) (V2 m ρ) c).arrAt 3 cfg1.N : S24x2048x2048.Idx → EReal)
      = Cert.Spec.gate3 (V2 m ρ c main_v0) (V2 m ρ c main_v1) (V2 m ρ c main_v2))
    (hV2v0 : V2 m ρ c main_v0 = V1 m ρ c main_v0) (hV2v1 : V2 m ρ c main_v1 = V1 m ρ c main_v1)
    (hV2v2 : V2 m ρ c main_v2 = (dat0 (V1 m ρ) c).arrAt 2 cfg0.N)
    (hV1v0 : V1 m ρ c main_v0
      = shapeCast S24x2048x64 (m ((c : Thread nD τ).loc main_arg0)) Facts₀.shapeCasts_S2x12x2048x64_S24x2048x64)
    (hV1v1 : V1 m ρ c main_v1
      = shapeCast S24x2048x64 (m ((c : Thread nD τ).loc main_arg1)) Facts₀.shapeCasts_S2x12x2048x64_S24x2048x64)
    (hP : ((dat0 (F := Ideal) (V1 m ρ) c).arrAt 2 cfg0.N : S2048x2048.Idx → EReal) = Cert.Spec.posBias (V1 m ρ c main_arg2))
    (hV1a2 : V1 m ρ c main_arg2 = m ((c : Thread nD τ).loc main_arg2)) :
    W4 (F := Ideal) m ρ c (Proc.devRef .tc main_v4)
      = Cert.Spec.result (m ((c : Thread nD τ).loc main_arg0)) (m ((c : Thread nD τ).loc main_arg1))
          (m ((c : Thread nD τ).loc main_arg2)) := by
  rw [hW4, W3_v3, hG, hV2v0, hV2v1, hV2v2, hV1v0, hV1v1, hP, hV1a2]
  exact Cert.Spec.result_eq_compose _ _ _ _ _

/-- The kernel program's result buffer at the end of the run is the result of the launch arguments: the chain above at
    the facts read off the run — what each host stretch and each call leaves — and the two calls' values. -/
theorem kernel_value (c : Dev nD) :
    W4 (F := Ideal) m ρ c (Proc.devRef .tc main_v4)
      = Cert.Spec.result (m ((c : Thread nD τ).loc main_arg0)) (m ((c : Thread nD τ).loc main_arg1))
          (m ((c : Thread nD τ).loc main_arg2)) :=
  kernel_value_of m ρ c (W4_v4 m ρ c) (Cert.KernelIdeal.HandValue1.gate_array (V2 m ρ) c)
    (V2_v0 m ρ c) (V2_v1 m ρ c) (V2_v2 m ρ c) (V1_v0 m ρ c) (V1_v1 m ρ c)
    (Cert.KernelIdeal.HandValue.posBias_array (V1 m ρ) c) (V1_arg2 m ρ c)

end Cert.KernelIdeal.HandValue2

end
-- ==== Proof.RefSpec.lean ====
/-
  The reference program's result is the specification.

  Read one host operation at a time, the reference's last value at index (b, h, t, s) is
  (1 / (1 + e^(-(⟨q[b,h,t,:], k[b,h,s,:]⟩ · 1/8)))) · (⟨pe[t,:], pe[s,:]⟩ · 1/8), the two 1's the float word
  0x3F800000 spread to the whole array; the logistic function is that quotient by definition, and the word denotes 1.
-/
import proofs.«141737_j71210557768292_1_alg».proof.Proof.Gen.ReferenceIdeal.Read
import proofs.«141737_j71210557768292_1_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-- The left operand's index of the gate's contraction at (b, h, t, s) and d is (b, h, t, d). -/
theorem lidx0 (b : Fin 2) (h : Fin 12) (t s : Fin 2048) (d : Fin 64) :
    lidx_main_v0 (ix4 b h t s) d = ix4 b h t d :=
  funext fun a => Fin.ext (by match a with | ⟨0, _⟩ => rfl | ⟨1, _⟩ => rfl | ⟨2, _⟩ => rfl | ⟨3, _⟩ => rfl)

/-- The right operand's index of the gate's contraction at (b, h, t, s) and d is (b, h, s, d). -/
theorem ridx0 (b : Fin 2) (h : Fin 12) (t s : Fin 2048) (d : Fin 64) :
    ridx_main_v0 (ix4 b h t s) d = ix4 b h s d :=
  funext fun a => Fin.ext (by match a with | ⟨0, _⟩ => rfl | ⟨1, _⟩ => rfl | ⟨2, _⟩ => rfl | ⟨3, _⟩ => rfl)

/-- The two broadcasts of the bias read it at (t, s). -/
theorem idx12_13 (b : Fin 2) (h : Fin 12) (t s : Fin 2048) :
    idx_main_v12 (idx_main_v13 (ix4 b h t s)) = ix2 t s :=
  funext fun a => Fin.ext (by match a with | ⟨0, _⟩ => rfl | ⟨1, _⟩ => rfl)

/-- The left operand's index of the bias's contraction at (t, s) and d is (t, d). -/
theorem lidx9 (t s : Fin 2048) (d : Fin 64) : lidx_main_v9 (ix2 t s) d = ix2 t d :=
  funext fun a => Fin.ext (by match a with | ⟨0, _⟩ => rfl | ⟨1, _⟩ => rfl)

/-- The right operand's index of the bias's contraction at (t, s) and d is (s, d). -/
theorem ridx9 (t s : Fin 2048) (d : Fin 64) : ridx_main_v9 (ix2 t s) d = ix2 s d :=
  funext fun a => Fin.ext (by match a with | ⟨0, _⟩ => rfl | ⟨1, _⟩ => rfl)

/-- The reference's result array is the specification's: at (b, h, t, s) the chain of host operations reads
    `div 1 (1 + exp (-(∑ d, q[b,h,t,d] · k[b,h,s,d]) · c8))` times `(∑ d, pe[t,d] · pe[s,d]) · c8`, with the float word
    0x3F800000 denoting 1, and `Ideal.logistic x` is `div 1 (1 + exp (-x))` by definition. -/
theorem ref_is_spec (x0 x1 : (⟨Cert.ReferenceIdeal.S2x12x2048x64, .f32⟩ : BufTy).Contents (Elt Ideal))
    (x2 : (⟨Cert.ReferenceIdeal.S2048x64, .f32⟩ : BufTy).Contents (Elt Ideal)) :
    Cert.ReferenceIdeal.Read.val_main_v14 (F := Ideal) x0 x1 x2 = Cert.Spec.result x0 x1 x2 := by
  funext i
  obtain ⟨b, h, t, s, rfl⟩ : ∃ (b : Fin 2) (h : Fin 12) (t s : Fin 2048), i = ix4 b h t s := ⟨_, _, _, _, eq_ix4 i⟩
  rw [val_main_v14_apply, val_main_v8_apply, val_main_v7_apply, val_main_cst_1_apply, val_main_v6_apply, val_main_v5_apply,
    val_main_cst_0_apply, val_main_v4_apply, val_main_v3_apply, val_main_v2_apply, val_main_v0_apply, val_main_v1_apply,
    val_main_cst_apply, val_main_v13_apply, val_main_v12_apply, val_main_v11_apply, val_main_v9_apply, val_main_v10_apply,
    val_main_cst_2_apply]
  simp only [lidx0, ridx0, idx12_13, lidx9, ridx9, Cert.Spec.result, Cert.Spec.resultAt, Cert.Spec.posBiasAt, Cert.Spec.c8,
    Ideal.mulf_def, Ideal.hostDivf_def, Ideal.addf_def, Ideal.hostUnary_exp_def, Ideal.hostNegf_def, Ideal.negf_def,
    Ideal.ofBits_def, Ideal.ofBits_one_f32, Ideal.logistic]

end Cert.ReferenceIdeal.RefValue

end
-- ==== Proof.lean ====
/-
  The kernel computes, for queries q and keys k of shape [2, 12, 2048, 64] and a position table pe of shape [2048, 64],
      out[b, h, t, s] = σ((∑_d q[b,h,t,d] · k[b,h,s,d]) · 1/8) · ((∑_d pe[t,d] · pe[s,d]) · 1/8),      σ x = 1 / (1 + e^(-x)),
  in two pipelined calls over heads flattened to one axis of 24: the first writes the position bias
  (∑_d pe[t,d] · pe[s,d]) · 1/8 as a [2048, 2048] array, 512 rows at a grid point; the second, at each point of a
  2 × 2 × 24 grid, multiplies one head's 1024 × 1024 tile of σ(q kᵀ · 1/8) by the matching tile of the bias. The reference
  computes the same expression with two contractions, the logistic spelt as 1 / (1 + exp(-x)), and a broadcast of the bias
  over batch and head. On the extended reals the two agree entry by entry with no condition on the inputs: both
  contractions are the same sums of 64 products, the scale is the same float word on both sides, a change of float
  format is the identity, and the logistic is by definition the quotient the reference spells (`Cert.Spec.result`,
  Proof/Spec.lean; the kernel's side Proof/KernelValue.lean, the reference's Proof/RefSpec.lean).

  Each kernel program runs to the end and leaves its arguments as launched because @main is two reshapes, the two
  calls and one reshape, each call a pipeline whose body loads whole staging buffers, computes and stores one whole
  staging buffer (Proof/K, Proof/KI: the bodies' triples, the proof data, the run). The first call reads the position
  table through two windows; they hold the table's array at half the share each. Nothing in the ideal pass rewrote the
  kernel, so the idealized program is the kernel's own text read on the extended reals.
-/
import proofs.«141737_j71210557768292_1_alg».proof.Defs
import proofs.«141737_j71210557768292_1_alg».proof.Proof.Gen.Kernel
import proofs.«141737_j71210557768292_1_alg».proof.Proof.Gen.KernelIdeal
import proofs.«141737_j71210557768292_1_alg».proof.Proof.Gen.ReferenceIdeal
import proofs.«141737_j71210557768292_1_alg».proof.Proof.Gen.ReferenceIdeal.Run
import proofs.«141737_j71210557768292_1_alg».proof.Proof.Gen.ReferenceIdeal.Read
import proofs.«141737_j71210557768292_1_alg».proof.Proof.Gen.Pre_finite_inputs
import proofs.«141737_j71210557768292_1_alg».proof.Proof.K.Run
import proofs.«141737_j71210557768292_1_alg».proof.Proof.K.FoldRead
import proofs.«141737_j71210557768292_1_alg».proof.Proof.KI.Run
import proofs.«141737_j71210557768292_1_alg».proof.Proof.KI.FoldRead
import proofs.«141737_j71210557768292_1_alg».proof.Proof.KernelValue
import proofs.«141737_j71210557768292_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its three arguments as launched: every unscoped
    buffer ends at the last boundary's contents, and no item of @main writes an argument. -/
theorem frame_kernel : Cert.frame_Kernel := fun m ρ _ =>
  (θ_run (Cert.Kernel.defs (F := Bits)) _ _).mono (fun _ h c =>
    ⟨(h c _ (Cert.Kernel.Hand.mem_uc Cert.Kernel.main_arg0 (by decide))).trans (Cert.Kernel.Hand.W4_arg0 m ρ c),
     (h c _ (Cert.Kernel.Hand.mem_uc Cert.Kernel.main_arg1 (by decide))).trans (Cert.Kernel.Hand.W4_arg1 m ρ c),
     (h c _ (Cert.Kernel.Hand.mem_uc Cert.Kernel.main_arg2 (by decide))).trans (Cert.Kernel.Hand.W4_arg2 m ρ c)⟩)
    (Cert.Kernel.Hand.run_all (F := Bits) m ρ)

/-- The same of the kernel read on the extended reals. -/
theorem frame_kernelIdeal : Cert.frame_KernelIdeal := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W4_arg0 m ρ c),
     (h c _ (Cert.KernelIdeal.Hand.mem_uc Cert.KernelIdeal.main_arg1 (by decide))).trans (Cert.KernelIdeal.Hand.W4_arg1 m ρ c),
     (h c _ (Cert.KernelIdeal.Hand.mem_uc Cert.KernelIdeal.main_arg2 (by decide))).trans (Cert.KernelIdeal.Hand.W4_arg2 m ρ c)⟩)
    (Cert.KernelIdeal.Hand.run_all (F := Ideal) m ρ)

/-- The reference is a straight line of host operations: its run with the result dropped. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both idealized programs end with the result array at
    `Cert.Spec.result` of the arguments: the kernel's last reshape of what its second call leaves, the reference's last
    product, are that one function. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono (fun _ h c =>
      ⟨(h c _ (Cert.KernelIdeal.Hand.mem_uc Cert.KernelIdeal.main_v4 (by decide))).trans (Cert.KernelIdeal.HandValue2.kernel_value m ρ c),
       (h c _ (Cert.KernelIdeal.Hand.mem_uc Cert.KernelIdeal.main_arg0 (by decide))).trans (Cert.KernelIdeal.Hand.W4_arg0 m ρ c),
       (h c _ (Cert.KernelIdeal.Hand.mem_uc Cert.KernelIdeal.main_arg1 (by decide))).trans (Cert.KernelIdeal.Hand.W4_arg1 m ρ c),
       (h c _ (Cert.KernelIdeal.Hand.mem_uc Cert.KernelIdeal.main_arg2 (by decide))).trans (Cert.KernelIdeal.Hand.W4_arg2 m ρ c)⟩)
      (Cert.KernelIdeal.Hand.run_all (F := Ideal) m ρ)
  · refine (θ_run (Cert.ReferenceIdeal.defs (F := Ideal)) _ _).mono (fun _ h c => ⟨?_, (h c).2⟩)
      (Cert.ReferenceIdeal.Value.run (F := Ideal) m' ρ')
    rw [(h c).1, Cert.ReferenceIdeal.Read.val_main_v14_eq, Cert.ReferenceIdeal.RefValue.ref_is_spec,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
